-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "neg_big" .f32 0xFF333332#32 ⊥
  ∧ IdealRules.named_const.Statement Cert.KernelIdeal.κ "pos_big" .f32 0x7F333332#32 ⊤
  ∧ IdealRules.named_const.Statement Cert.KernelIdeal.κ "neg_big_2" .f32 0xFEB33332#32 ⊥
  ∧ IdealRules.named_const.Statement Cert.KernelIdeal.κ "pos_big_2" .f32 0x7EB33332#32 ⊤

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4096 : Shape := ⟨1, ![4096]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel

variable [Facts]

def fn {F : FTy → Type} [FloatOps F] (main_arg0 : FVec F S4096x256 .f32) (main_arg1 : IVec S4096 32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  main_v3
-- ==== Kernel.lean ====
abbrev S4096x256 : Shape := ⟨2, ![4096, 256]⟩
abbrev S4096 : Shape := ⟨1, ![4096]⟩
abbrev S_ : Shape := ⟨0, ![]⟩
abbrev S1x4096 : Shape := ⟨2, ![1, 4096]⟩
abbrev S1x256 : Shape := ⟨2, ![1, 256]⟩
abbrev S256x256 : Shape := ⟨2, ![256, 256]⟩
abbrev S256x4096 : Shape := ⟨2, ![256, 4096]⟩
abbrev S256x1 : Shape := ⟨2, ![256, 1]⟩
abbrev S256 : Shape := ⟨1, ![256]⟩

abbrev nBuf : Space → Nat
  | .hbm => 22
  | .vmem => 7
  | .smem => 0
  | _ => 0

abbrev bufTy : (tb : Table) → Fin (tcTables nBuf tb) → BufTy
  | .hbm, ⟨0, _⟩ => ⟨S4096x256, .f32⟩
  | .hbm, ⟨1, _⟩ => ⟨S4096, .i32⟩
  | .hbm, ⟨2, _⟩ => ⟨S4096x256, .bf16⟩
  | .hbm, ⟨3, _⟩ => ⟨S4096x256, .f32⟩
  | .hbm, ⟨4, _⟩ => ⟨S_, .f32⟩
  | .hbm, ⟨5, _⟩ => ⟨S4096, .f32⟩
  | .hbm, ⟨6, _⟩ => ⟨S1x4096, .f32⟩
  | .hbm, ⟨7, _⟩ => ⟨S1x4096, .i32⟩
  | .hbm, ⟨8, _⟩ => ⟨S1x4096, .f32⟩
  | .hbm, ⟨9, _⟩ => ⟨S1x4096, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .i1⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .local _ .vmem, ⟨0, _⟩ => ⟨S4096x256, .bf16⟩
  | .local _ .vmem, ⟨1, _⟩ => ⟨S1x4096, .f32⟩
  | .local _ .vmem, ⟨2, _⟩ => ⟨S1x4096, .i32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_v10 : Ref sig .tc := ⟨.hbm, 18, rfl⟩
abbrev main_cst_4 : Ref sig .tc := ⟨.hbm, 19, rfl⟩
abbrev main_call0_v0 : Ref sig .tc := ⟨.hbm, 20, rfl⟩
abbrev main_v11 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def k0_mult1 (i : grid0.Coords) : BitVec 32 :=
  let arg0 : BitVec 32 := BitVec.ofNat 32 (i 0).val
  let c256_i32 : BitVec 32 := 256#32
  let v0 : BitVec 32 := Scalar.muli arg0 c256_i32
  v0
def k0_off1 (i : grid0.Coords) : Fin 2 → Nat :=
  let arg0 : BitVec 32 := BitVec.ofNat 32 (i 0).val
  let c256_i32 : BitVec 32 := 256#32
  let v0 : BitVec 32 := Scalar.muli arg0 c256_i32
  let v1 : BitVec 32 := v0
  let v2 : Index := Scalar.indexCast v1
  let c0 : Index := 0#32
  ![v2.toNat, 0]
def k0_off2 (i : grid0.Coords) : Fin 2 → Nat :=
  let c0_2 : Index := 0#32
  let arg0 : BitVec 32 := BitVec.ofNat 32 (i 0).val
  let c256_i32 : BitVec 32 := 256#32
  let v0 : BitVec 32 := Scalar.muli arg0 c256_i32
  let v1 : BitVec 32 := v0
  let v8 : Index := Scalar.indexCast v1
  ![0, v8.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4096x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bitsLt_bf16_f32 : FTy.bits .bf16 < FTy.bits .f32
  reducesTo_S4096x256_S4096_d1 : S4096x256.ReducesTo [1] S4096
  h_S_ : 0 < S_.numel
  shapeCasts_S4096_S1x4096 : S4096.ShapeCasts S1x4096
  h_S256x256 : 0 < S256x256.numel
  shapeCasts_S256x256_S256x256 : S256x256.ShapeCasts S256x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  h_S1x256 : 0 < S1x256.numel
  shapeCasts_S1x256_S1x256 : S1x256.ShapeCasts S1x256
  transposes_S1x256_p1_0_S256x1 : S1x256.Transposes [1, 0] S256x1
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S256x1_S256x4096 : S256x1.Broadcasts S256x4096
  broadcasts_S1x4096_S256x4096 : S1x4096.Broadcasts S256x4096
  iota_S256x4096_d0_w32 : S256x4096.Iotas .tc 32 [0]
  iota_S256x4096_d1_w32 : S256x4096.Iotas .tc 32 [1]
  reduces_S256x4096_S256 : S256x4096.Reduces [1] S256
  shapeCasts_S256_S256x1 : S256.ShapeCasts S256x1
  transposes_S256x1_p1_0_S1x256 : S256x1.Transposes [1, 0] S1x256
  inb_S1x256_S1x256_0_0 : ∀ a, (![0, 0] : Fin 2 → Nat) a + S1x256.size a ≤ S1x256.size a
  natLt_1_32 : 1 < 32
  reducesTo_S1x4096_S_d0_1 : S1x4096.ReducesTo [0, 1] S_
  dot_S256x256_S4096x256_S256x4096_1_1_0_0_n_n_wf : DotDims.WF S256x256 S4096x256 S256x4096 [1] [1] [0] [0] [] []
  hrank0 : 0 < grid0.rank
  k0_mult1_dvd : ∀ i : grid0.Coords, 256 ∣ (k0_mult1 i).toNat
  k0_off1_inb : ∀ i : grid0.Coords, ∀ a, (k0_off1 i) a + S256x256.size a ≤ S4096x256.size a
  k0_off2_inb : ∀ i : grid0.Coords, ∀ a, (k0_off2 i) a + S1x256.size a ≤ S1x4096.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S4096x256.size a
  hwx0_0 : ∀ i : grid0.Coords, EltTy.bits .bf16 = 32 ∨ (Rect.block (s := S4096x256) S4096x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x4096.size a
  hwx0_1 : ∀ i : grid0.Coords, EltTy.bits .f32 = 32 ∨ (Rect.block (s := S1x4096) S1x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .i32 = 32 ∨ (Rect.block (s := S1x4096) S1x4096.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x4096.size a
  hwx0_3 : ∀ i : grid0.Coords, EltTy.bits .f32 = 32 ∨ (Rect.block (s := S1x4096) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x4096.size a
  hwx0_4 : ∀ i : grid0.Coords, EltTy.bits .f32 = 32 ∨ (Rect.block (s := S1x4096) S1x256.size (cc0_transform_4 i) (hinb0_4 i)).WholeWords (EltTy.packing .f32)

variable [Facts₀]

def dot_S256x256_S4096x256_S256x4096_1_1_0_0_n_n : DotDims S256x256 S4096x256 S256x4096 where
  lhsContracting := [1]
  rhsContracting := [1]
  lhsNonContracting := [0]
  rhsNonContracting := [0]
  lhsBatch := []
  rhsBatch := []
  wf := dot_S256x256_S4096x256_S256x4096_1_1_0_0_n_n_wf

abbrev win0_0 : Pipeline.Window sig grid0 :=
  Pipeline.Window.ofSpec (Memref.whole main_v0) S4096x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5_0) S1x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5_1) S1x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x256 : Shape := ⟨2, ![4096, 256]⟩
abbrev S4096 : Shape := ⟨1, ![4096]⟩
abbrev S_ : Shape := ⟨0, ![]⟩
abbrev S256x4096 : Shape := ⟨2, ![256, 4096]⟩
abbrev S4096x4096 : Shape := ⟨2, ![4096, 4096]⟩
abbrev S4096x1 : Shape := ⟨2, ![4096, 1]⟩
abbrev S1x4096 : Shape := ⟨2, ![1, 4096]⟩

abbrev nBuf : Space → Nat
  | .hbm => 73
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096, .i32⟩
  | .hbm, ⟨2, _⟩ => ⟨S4096x256, .f32⟩
  | .hbm, ⟨3, _⟩ => ⟨S_, .f32⟩
  | .hbm, ⟨4, _⟩ => ⟨S4096, .f32⟩
  | .hbm, ⟨5, _⟩ => ⟨S256x4096, .f32⟩
  | .hbm, ⟨6, _⟩ => ⟨S4096x4096, .f32⟩
  | .hbm, ⟨7, _⟩ => ⟨S4096x1, .f32⟩
  | .hbm, ⟨8, _⟩ => ⟨S1x4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S4096x1, .i32⟩
  | .hbm, ⟨21, _⟩ => ⟨S1x4096, .i32⟩
  | .hbm, ⟨22, _⟩ => ⟨S4096x4096, .i32⟩
  | .hbm, ⟨23, _⟩ => ⟨S4096x4096, .i32⟩
  | .hbm, ⟨24, _⟩ => ⟨S4096x4096, .i1⟩
  | .hbm, ⟨25, _⟩ => ⟨S4096x4096, .i32⟩
  | .hbm, ⟨26, _⟩ => ⟨S4096x4096, .i32⟩
  | .hbm, ⟨27, _⟩ => ⟨S_, .i32⟩
  | .hbm, ⟨28, _⟩ => ⟨S4096x4096, .i32⟩
  | .hbm, ⟨29, _⟩ => ⟨S4096x4096, .i32⟩
  | .hbm, ⟨30, _⟩ => ⟨S4096x4096, .i1⟩
  | .hbm, ⟨31, _⟩ => ⟨S4096x4096, .i1⟩
  | .hbm, ⟨32, _⟩ => ⟨S4096x4096, .i1⟩
  | .hbm, ⟨33, _⟩ => ⟨S4096x4096, .i1⟩
  | .hbm, ⟨34, _⟩ => ⟨S_, .f32⟩
  | .hbm, ⟨35, _⟩ => ⟨S4096x4096, .f32⟩
  | .hbm, ⟨36, _⟩ => ⟨S4096x4096, .f32⟩
  | .hbm, ⟨37, _⟩ => ⟨S_, .f32⟩
  | .hbm, ⟨38, _⟩ => ⟨S4096, .f32⟩
  | .hbm, ⟨39, _⟩ => ⟨S_, .f32⟩
  | .hbm, ⟨40, _⟩ => ⟨S4096x4096, .f32⟩
  | .hbm, ⟨41, _⟩ => ⟨S4096x4096, .f32⟩
  | .hbm, ⟨42, _⟩ => ⟨S_, .f32⟩
  | .hbm, ⟨43, _⟩ => ⟨S4096, .f32⟩
  | .hbm, ⟨44, _⟩ => ⟨S_, .i1⟩
  | .hbm, ⟨45, _⟩ => ⟨S4096, .i1⟩
  | .hbm, ⟨46, _⟩ => ⟨S_, .i1⟩
  | .hbm, ⟨47, _⟩ => ⟨S4096, .i1⟩
  | .hbm, ⟨48, _⟩ => ⟨S4096, .i1⟩
  | .hbm, ⟨49, _⟩ => ⟨S4096, .f32⟩
  | .hbm, ⟨50, _⟩ => ⟨S_, .f32⟩
  | .hbm, ⟨51, _⟩ => ⟨S4096, .f32⟩
  | .hbm, ⟨52, _⟩ => ⟨S4096, .f32⟩
  | .hbm, ⟨53, _⟩ => ⟨S_, .f32⟩
  | .hbm, ⟨54, _⟩ => ⟨S4096, .f32⟩
  | .hbm, ⟨55, _⟩ => ⟨S4096, .f32⟩
  | .hbm, ⟨56, _⟩ => ⟨S_, .f32⟩
  | .hbm, ⟨57, _⟩ => ⟨S_, .f32⟩
  | .hbm, ⟨58, _⟩ => ⟨S4096, .f32⟩
  | .hbm, ⟨59, _⟩ => ⟨S4096, .f32⟩
  | .hbm, ⟨60, _⟩ => ⟨S4096, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .i1⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_c : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_2 : Ref sig .tc := ⟨.hbm, 34, rfl⟩
abbrev main_call0_v0 : Ref sig .tc := ⟨.hbm, 35, rfl⟩
abbrev main_v28 : Ref sig .tc := ⟨.hbm, 36, rfl⟩
abbrev main_cst_3 : Ref sig .tc := ⟨.hbm, 37, rfl⟩
abbrev main_v29 : Ref sig .tc := ⟨.hbm, 38, rfl⟩
abbrev main_cst_4 : Ref sig .tc := ⟨.hbm, 39, rfl⟩
abbrev main_call1_v0 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_c_6 : Ref sig .tc := ⟨.hbm, 44, rfl⟩
abbrev main_v32 : Ref sig .tc := ⟨.hbm, 45, rfl⟩
abbrev main_c_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_call2_cst : Ref sig .tc := ⟨.hbm, 53, rfl⟩
abbrev main_call2_v0 : Ref sig .tc := ⟨.hbm, 54, rfl⟩
abbrev main_v38 : Ref sig .tc := ⟨.hbm, 55, rfl⟩
abbrev main_cst_9 : Ref sig .tc := ⟨.hbm, 56, rfl⟩
abbrev main_call3_v0 : Ref sig .tc := ⟨.hbm, 57, rfl⟩
abbrev main_call3_v1 : Ref sig .tc := ⟨.hbm, 58, rfl⟩
abbrev main_v39 : Ref sig .tc := ⟨.hbm, 59, rfl⟩
abbrev main_v40 : Ref sig .tc := ⟨.hbm, 60, rfl⟩
abbrev main_cst_10 : Ref sig .tc := ⟨.hbm, 61, rfl⟩
abbrev main_v41 : Ref sig .tc := ⟨.hbm, 62, rfl⟩
abbrev main_cst_11 : Ref sig .tc := ⟨.hbm, 63, rfl⟩
abbrev main_v42 : Ref sig .tc := ⟨.hbm, 64, rfl⟩
abbrev main_cst_12 : Ref sig .tc := ⟨.hbm, 65, rfl⟩
abbrev main_v43 : Ref sig .tc := ⟨.hbm, 66, rfl⟩
abbrev main_cst_13 : Ref sig .tc := ⟨.hbm, 67, rfl⟩
abbrev main_v44 : Ref sig .tc := ⟨.hbm, 68, rfl⟩
abbrev main_v45 : Ref sig .tc := ⟨.hbm, 69, rfl⟩
abbrev main_cst_14 : Ref sig .tc := ⟨.hbm, 70, rfl⟩
abbrev main_call4_v0 : Ref sig .tc := ⟨.hbm, 71, rfl⟩
abbrev main_v46 : Ref sig .tc := ⟨.hbm, 72, rfl⟩

abbrev nD : Nat := 1
abbrev τ : Topo := Topo.v7x

variable {F : FTy → Type} [FloatOps F]

class Facts₀ : Prop where
  reducesTo_S4096x256_S4096_d1 : S4096x256.ReducesTo [1] S4096
  h_S_ : 0 < S_.numel
  transposes_S4096x256_S256x4096_1_0 : S4096x256.Transposes [1, 0] S256x4096
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  reducesTo_S4096x4096_S4096_d1 : S4096x4096.ReducesTo [1] S4096
  bcast_S_S4096 : S_.BroadcastsInDim S4096 (![] : Fin 0 → Fin S4096.rank)
  reducesTo_S4096_S_d0 : S4096.ReducesTo [0] S_
  dot_S4096x256_S256x4096_S4096x4096_1_0_0_1_n_n_wf : DotDims.WF S4096x256 S256x4096 S4096x4096 [1] [0] [0] [1] [] []

variable [Facts₀]

def dot_S4096x256_S256x4096_S4096x4096_1_0_0_1_n_n : DotDims S4096x256 S256x4096 S4096x4096 where
  lhsContracting := [1]
  rhsContracting := [0]
  lhsNonContracting := [0]
  rhsNonContracting := [1]
  lhsBatch := []
  rhsBatch := []
  wf := dot_S4096x256_S256x4096_S4096x4096_1_0_0_1_n_n_wf

class Facts : Prop extends Facts₀ where

variable [Facts]
-- ==== Proof.Spec.lean ====
/-
  Batch-hard triplet loss over 4096 embeddings of dimension 256, as one function of the two argument arrays.

  For rows i, j:  sq i = Σ_k x(i,k)²,  gram i j = Σ_k x(i,k)·x(j,k),
  dist i j = √(max (sq i + sq j − 2·gram i j) 0).  Row j is a POSITIVE for row i when the labels agree and j ≠ i,
  a NEGATIVE when the labels differ.  hp i is the largest distance to a positive (−∞ when there is none), hn i the
  smallest distance to a negative (+∞ when there is none).  A row counts when it has a positive and a negative;
  its loss is max (hp i − hn i + margin) 0.  The result is the mean loss over the rows that count (0 when none does).

  Two ways of saying "row i counts" appear: by the extremes themselves (−∞ < hp i and hn i < +∞) and by the
  existence of a positive and a negative.  They agree once every distance is a real number.
-/
import Idealize.ShloMosaic.PureOps.Ideal.Laws
import Idealize.ShloMosaic.Lib.ValueIdx

noncomputable section

open scoped BigOperators

namespace Cert.Triplet

open Idealize.ShloMosaic Idealize.ShloMosaic.ValueIdx

/-- The shapes of the two arguments and of a scalar. -/
abbrev SEmb : Shape := ⟨2, ![4096, 256]⟩
abbrev SLab : Shape := ⟨1, ![4096]⟩
abbrev SScalar : Shape := ⟨0, ![]⟩

/-- The float words the two programs share, never evaluated except the zero. -/
abbrev zeroW : EReal := Ideal.ofBits .f32 0x00000000#32
abbrev oneW : EReal := Ideal.ofBits .f32 0x3F800000#32
abbrev twoW : EReal := Ideal.ofBits .f32 0x40000000#32
abbrev marginW : EReal := Ideal.ofBits .f32 0x3E99999A#32

section
variable (X : FVec Ideal SEmb .f32) (lab : IVec SLab 32)

/-- The squared norm of row `i`. -/
def sq (i : Fin 4096) : EReal := ∑ k : Fin 256, X (ix2 i k) * X (ix2 i k)

/-- The inner product of rows `i` and `j`. -/
def gram (i j : Fin 4096) : EReal := ∑ k : Fin 256, X (ix2 i k) * X (ix2 j k)

/-- The distance between rows `i` and `j`. -/
def dist (i j : Fin 4096) : EReal := Ideal.sqrt (max (sq X i + sq X j - twoW * gram X i j) zeroW)

/-- Row `j` is a positive for row `i`: same label, another row. -/
def pos (i j : Fin 4096) : Prop := lab (ix1 i) = lab (ix1 j) ∧ i ≠ j
/-- Row `j` is a negative for row `i`: another label. -/
def neg (i j : Fin 4096) : Prop := ¬ lab (ix1 i) = lab (ix1 j)

instance (i j : Fin 4096) : Decidable (pos lab i j) := by unfold pos; infer_instance
instance (i j : Fin 4096) : Decidable (neg lab i j) := by unfold neg; infer_instance

/-- The hardest positive: the largest distance to a positive, `⊥` when there is none. -/
def hp (i : Fin 4096) : EReal :=
  (Finset.univ : Finset (Fin 4096)).fold max ⊥ (fun j => if pos lab i j then dist X i j else ⊥)

/-- The hardest negative: the smallest distance to a negative, `⊤` when there is none. -/
def hn (i : Fin 4096) : EReal :=
  (Finset.univ : Finset (Fin 4096)).fold min ⊤ (fun j => if neg lab i j then dist X i j else ⊤)

/-- Row `i` counts, read off the extremes. -/
def countsByExtremes (i : Fin 4096) : Prop := ⊥ < hp X lab i ∧ hn X lab i < ⊤
/-- Row `i` counts, read off the masks. -/
def countsByMasks (i : Fin 4096) : Prop := (∃ j, pos lab i j) ∧ (∃ j, neg lab i j)

/-- The hinge of row `i`, before the row's validity is applied. -/
def hinge (i : Fin 4096) : EReal := max (hp X lab i - hn X lab i + marginW) zeroW

open Classical in
/-- Row `i`'s loss under a validity predicate. -/
def rowLoss (valid : Fin 4096 → Prop) (i : Fin 4096) : EReal := if valid i then hinge X lab i else zeroW

open Classical in
/-- Row `i`'s count (one or zero) under a validity predicate. -/
def rowCount (valid : Fin 4096 → Prop) (i : Fin 4096) : EReal := if valid i then ((1 : ℝ) : EReal) else ((0 : ℝ) : EReal)

/-- A host sum of a 4096-vector from the zero word, as a scalar array. -/
def total (f : Fin 4096 → EReal) : FVec Ideal SScalar .f32 := fun _ => zeroW + ∑ i : Fin 4096, f i

end

/-- The last lines both programs share: the mean over the rows that count, zero when none does. -/
def mean (count loss : FVec Ideal SScalar .f32) : FVec Ideal SScalar .f32 :=
  select (cmpf .ogt count (constant (F := Ideal) SScalar .f32 0x00000000#32))
    (Host.divf loss (maximumf count (constant (F := Ideal) SScalar .f32 0x3F800000#32)))
    (constant (F := Ideal) SScalar .f32 0x00000000#32)

/-- The triplet loss of the arguments, with "row counts" read by `valid`. -/
def loss (X : FVec Ideal SEmb .f32) (lab : IVec SLab 32) (valid : Fin 4096 → Prop) : FVec Ideal SScalar .f32 :=
  mean (total (rowCount valid)) (total (rowLoss X lab valid))

/-! ## Words at an index -/

/-- A select on a one-bit word that says `P` is the `if` on `P`. -/
theorem select_eq_ite {α : Type} (w : BitVec 1) (P : Prop) [Decidable P] (h : w = 1#1 ↔ P) (a b : α) :
    Scalar.select w a b = if P then a else b := by
  by_cases hP : P
  · rw [if_pos hP, h.2 hP]; exact select_one a b
  · rw [if_neg hP, eq_zero_of_ne_one (fun e => hP (h.1 e))]; exact select_zero a b

end Cert.Triplet

end
-- ==== Proof.Counts.lean ====
/-
  The counting argument for the batch-hard triplet loss.

  When every entry of the embedding array is a real number, every squared norm and every inner product is a
  finite sum of products of reals, hence a real; so is their combination under the square root, and the distance
  is the square root of a nonnegative real: a real number, neither −∞ nor +∞.

  A running maximum from −∞ of a family exceeds −∞ exactly when some member does; a running minimum from +∞ lies
  below +∞ exactly when some member does.  With real distances, the family "distance to j if j is a positive,
  −∞ otherwise" has a member above −∞ exactly when a positive exists, and likewise for the negatives.  So the two
  ways of saying "row i counts" agree, and so do the two losses built on them.
-/
import proofs.«102428_j23802708754519_2_alg».proof.Proof.Spec

noncomputable section

open scoped BigOperators

namespace Cert.Triplet

open Idealize.ShloMosaic Idealize.ShloMosaic.ValueIdx

/-! ## Sums and products of reals stay real -/

/-- A finite sum of extended reals, each of which is a real, is a real. -/
theorem sum_real {ι : Type} (s : Finset ι) (f : ι → EReal) (hf : ∀ k ∈ s, ∃ r : ℝ, f k = (r : EReal)) :
    ∃ r : ℝ, ∑ k ∈ s, f k = (r : EReal) := by
  classical
  induction s using Finset.induction_on with
  | empty => exact ⟨0, by simp⟩
  | insert a s ha ih =>
    obtain ⟨r, hr⟩ := hf a (Finset.mem_insert_self a s)
    obtain ⟨t, ht⟩ := ih (fun k hk => hf k (Finset.mem_insert_of_mem hk))
    exact ⟨r + t, by rw [Finset.sum_insert ha, hr, ht, EReal.coe_add]⟩

/-- The product of two reals is a real. -/
theorem mul_real {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

/-- The word for two denotes a real number. -/
theorem twoW_real : ∃ r : ℝ, twoW = (r : EReal) := by
  refine ⟨2, ?_⟩
  simp [Ideal.ofBits, Ideal.ieee, -EReal.coe_mul]
  norm_num

section
variable (X : FVec Ideal SEmb .f32) (lab : IVec SLab 32)

/-- Real entries give a real inner product. -/
theorem gram_real (hX : ∀ idx, ∃ r : ℝ, X idx = (r : EReal)) (i j : Fin 4096) :
    ∃ r : ℝ, gram X i j = (r : EReal) :=
  sum_real _ _ (fun k _ => mul_real (hX (ix2 i k)) (hX (ix2 j k)))

/-- Real entries give a real squared norm. -/
theorem sq_real (hX : ∀ idx, ∃ r : ℝ, X idx = (r : EReal)) (i : Fin 4096) :
    ∃ r : ℝ, sq X i = (r : EReal) :=
  sum_real _ _ (fun k _ => mul_real (hX (ix2 i k)) (hX (ix2 i k)))

/-- Real entries give a real, nonnegative distance. -/
theorem dist_real (hX : ∀ idx, ∃ r : ℝ, X idx = (r : EReal)) (i j : Fin 4096) :
    ∃ r : ℝ, 0 ≤ r ∧ dist X i j = (r : EReal) := by
  obtain ⟨a, ha⟩ := sq_real X hX i
  obtain ⟨b, hb⟩ := sq_real X hX j
  obtain ⟨g, hg⟩ := gram_real X hX i j
  obtain ⟨w, hw⟩ := twoW_real
  refine ⟨Real.sqrt (max (a + b - w * g) 0), Real.sqrt_nonneg _, ?_⟩
  have hz : zeroW = ((0 : ℝ) : EReal) := by
    show Ideal.ofBits .f32 0x00000000#32 = _
    rw [Ideal.ofBits_zero_f32]; rfl
  unfold dist
  rw [ha, hb, hg, hw, hz, ← EReal.coe_mul, ← EReal.coe_add, ← EReal.coe_sub,
    ← (EReal.coe_strictMono.monotone.map_max (a := a + b - w * g) (b := 0)),
    Ideal.sqrt_coe, if_neg (not_lt.2 (le_max_right _ _))]

/-- A distance between rows of real entries lies strictly between −∞ and +∞. -/
theorem bot_lt_dist (hX : ∀ idx, ∃ r : ℝ, X idx = (r : EReal)) (i j : Fin 4096) : ⊥ < dist X i j := by
  obtain ⟨r, -, hr⟩ := dist_real X hX i j
  rw [hr]; exact EReal.bot_lt_coe r

theorem dist_lt_top (hX : ∀ idx, ∃ r : ℝ, X idx = (r : EReal)) (i j : Fin 4096) : dist X i j < ⊤ := by
  obtain ⟨r, -, hr⟩ := dist_real X hX i j
  rw [hr]; exact EReal.coe_lt_top r

end

/-! ## Running extremes against their starting values -/

/-- A running maximum from −∞ exceeds −∞ exactly when some member of the family does. -/
theorem bot_lt_fold_max {n : ℕ} (f : Fin n → EReal) :
    ⊥ < (Finset.univ : Finset (Fin n)).fold max ⊥ f ↔ ∃ j, ⊥ < f j := by
  rw [Finset.lt_fold_max]
  simp

/-- A running minimum from +∞ lies below +∞ exactly when some member of the family does. -/
theorem fold_min_lt_top {n : ℕ} (f : Fin n → EReal) :
    (Finset.univ : Finset (Fin n)).fold min ⊤ f < ⊤ ↔ ∃ j, f j < ⊤ := by
  rw [Finset.fold_min_lt]
  simp

/-! ## The two readings of "row i counts" -/

section
variable (X : FVec Ideal SEmb .f32) (lab : IVec SLab 32)

/-- With real entries, the hardest positive exceeds −∞ exactly when a positive exists. -/
theorem bot_lt_hp_iff (hX : ∀ idx, ∃ r : ℝ, X idx = (r : EReal)) (i : Fin 4096) :
    ⊥ < hp X lab i ↔ ∃ j, pos lab i j := by
  unfold hp
  rw [bot_lt_fold_max]
  refine exists_congr fun j => ?_
  by_cases h : pos lab i j
  · rw [if_pos h]; exact ⟨fun _ => h, fun _ => bot_lt_dist X hX i j⟩
  · rw [if_neg h]; exact ⟨fun e => absurd e (lt_irrefl _), fun e => absurd e h⟩

/-- With real entries, the hardest negative lies below +∞ exactly when a negative exists. -/
theorem hn_lt_top_iff (hX : ∀ idx, ∃ r : ℝ, X idx = (r : EReal)) (i : Fin 4096) :
    hn X lab i < ⊤ ↔ ∃ j, neg lab i j := by
  unfold hn
  rw [fold_min_lt_top]
  refine exists_congr fun j => ?_
  by_cases h : neg lab i j
  · rw [if_pos h]; exact ⟨fun _ => h, fun _ => dist_lt_top X hX i j⟩
  · rw [if_neg h]; exact ⟨fun e => absurd e (lt_irrefl _), fun e => absurd e h⟩

/-- With real entries, a row counts by its extremes exactly when it counts by its masks. -/
theorem counts_iff (hX : ∀ idx, ∃ r : ℝ, X idx = (r : EReal)) (i : Fin 4096) :
    countsByExtremes X lab i ↔ countsByMasks lab i := by
  unfold countsByExtremes countsByMasks
  rw [bot_lt_hp_iff X lab hX i, hn_lt_top_iff X lab hX i]

/-- With real entries, the loss read by the extremes is the loss read by the masks. -/
theorem loss_eq (hX : ∀ idx, ∃ r : ℝ, X idx = (r : EReal)) :
    loss X lab (countsByExtremes X lab) = loss X lab (countsByMasks lab) := by
  have h : countsByExtremes X lab = countsByMasks lab := funext fun i => propext (counts_iff X lab hX i)
  rw [h]

end

end Cert.Triplet

end
-- ==== Proof.Finite.lean ====
/-
  From the precondition to "every entry is a real number".

  The precondition says that the conjunction, over all entries x of the embedding array, of the comparison
  |x| < +∞ is true.  A conjunction that is true has every conjunct true, so |x| < +∞ at every entry, where
  |x| = max x (−x).  At x = −∞ and at x = +∞ that maximum is +∞, which is not below +∞; so x is a real.
-/
import proofs.«102428_j23802708754519_2_alg».proof.Pre_finite_inputs
import Idealize.ShloMosaic.Lib.ReduceAll
import Idealize.ShloMosaic.Lib.ValueIdx
import Idealize.ShloMosaic.PureOps.Ideal.Laws

noncomputable section

namespace Cert.Triplet

open Idealize.ShloMosaic Idealize.ShloMosaic.ValueIdx

/-- The scalar shape has a single index. -/
instance subsingleton_scalar_idx : Subsingleton Cert.Pre_finite_inputs.S_.Idx :=
  ⟨fun _ _ => funext fun d => d.elim0⟩

/-- An extended real whose absolute value lies below +∞ is a real. -/
theorem real_of_abs_lt_top (x : EReal) (h : max x (-x) < ⊤) : ∃ r : ℝ, x = (r : EReal) := by
  induction x using EReal.rec with
  | bot => simp at h
  | coe r => exact ⟨r, rfl⟩
  | top => simp at h

/-- A comparison "less than" that came out true compared a smaller with a larger. -/
theorem lt_of_cmp_olt {x y : EReal} (h : Ideal.cmp .olt x y = 1#1) : x < y := by
  by_contra hn
  simp [Ideal.cmp, hn] at h

/-- The precondition makes every entry of the embedding array a real number. -/
theorem real_of_pre [Cert.Pre_finite_inputs.Facts]
    (X : FVec Ideal Cert.Pre_finite_inputs.S4096x256 .f32) (lab : IVec Cert.Pre_finite_inputs.S4096 32)
    (h : Cert.Pre_finite_inputs.fn (F := Ideal) X lab = fun _ => 1#1) :
    ∀ idx, ∃ r : ℝ, X idx = (r : EReal) := by
  intro idx
  have h0 := congrFun h ValueIdx.ix0
  dsimp only [Cert.Pre_finite_inputs.fn] at h0
  have e := Host.reduce_andi_all _ _ _ _ _ h0 idx
  have e' : Ideal.cmp .olt (max (X idx) (-(X idx))) (Ideal.ofBits .f32 0x7F800000#32) = 1#1 := e
  have hw : Ideal.ofBits .f32 0x7F800000#32 = ⊤ := by simp [Ideal.ofBits, Ideal.ieee]
  rw [hw] at e'
  exact real_of_abs_lt_top _ (lt_of_cmp_olt e')

end Cert.Triplet

end
-- ==== Proof.RefRun.lean ====
/-
  The reference program's run, read back as one function of the two argument arrays.

  The program is a straight line of 71 array operations.  Its result is written here as a chain of small
  definitions, one per mathematical stage: the squared row norms, the matrix of inner products, the matrix of
  distances, the two masks (same label and another row; another label), the largest masked distance and the
  smallest masked distance of each row, whether a row has a positive and a negative, the row's hinge, the two
  totals (how many rows count; the sum of their hinges), and the quotient of the totals guarded against an
  empty count.  `run` states that every weakly fair execution of the program ends with the result array at
  that function of the arguments' initial contents, and with the arguments unchanged.
-/
import proofs.«102428_j23802708754519_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The program's 71 operations, in order (a called function's operations stand in its call's place). -/
abbrev ops : List (HloOp τ sig (Elt F)) :=
  [ binary main_arg0 main_arg0 main_v0 (mulf : (⟨S4096x256, .f32⟩ : BufTy).Contents (Elt F) → (⟨S4096x256, .f32⟩ : BufTy).Contents (Elt F) → (⟨S4096x256, .f32⟩ : BufTy).Contents (Elt F)),
    nullary main_cst (constant S_ .f32 0x00000000#32),
    binary main_v0 main_cst main_v1 ((fun x v => Host.reduceAdd x v reducesTo_S4096x256_S4096_d1 h_S_) : (⟨S4096x256, .f32⟩ : BufTy).Contents (Elt F) → (⟨S_, .f32⟩ : BufTy).Contents (Elt F) → (⟨S4096, .f32⟩ : BufTy).Contents (Elt F)),
    unary main_arg0 main_v2 ((transpose S256x4096 [1, 0] · transposes_S4096x256_S256x4096_1_0) : (⟨S4096x256, .f32⟩ : BufTy).Contents (Elt F) → (⟨S256x4096, .f32⟩ : BufTy).Contents (Elt F)),
    binary main_arg0 main_v2 main_v3 ((fun l r => Host.dotGeneral dot_S4096x256_S256x4096_S4096x4096_1_0_0_1_n_n none l r) : (⟨S4096x256, .f32⟩ : BufTy).Contents (Elt F) → (⟨S256x4096, .f32⟩ : BufTy).Contents (Elt F) → (⟨S4096x4096, .f32⟩ : BufTy).Contents (Elt F)),
    unary main_v1 main_v4 (broadcastInDim S4096x1 ![0] bcast_S4096_S4096x1_0 : (⟨S4096, .f32⟩ : BufTy).Contents (Elt F) → (⟨S4096x1, .f32⟩ : BufTy).Contents (Elt F)),
    unary main_v1 main_v5 (broadcastInDim S1x4096 ![1] bcast_S4096_S1x4096_1 : (⟨S4096, .f32⟩ : BufTy).Contents (Elt F) → (⟨S1x4096, .f32⟩ : BufTy).Contents (Elt F)),
    unary main_v4 main_v6 (broadcastInDim S4096x4096 ![0, 1] bcast_S4096x1_S4096x4096_0_1 : (⟨S4096x1, .f32⟩ : BufTy).Contents (Elt F) → (⟨S4096x4096, .f32⟩ : BufTy).Contents (Elt F)),
    unary main_v5 main_v7 (broadcastInDim S4096x4096 ![0, 1] bcast_S1x4096_S4096x4096_0_1 : (⟨S1x4096, .f32⟩ : BufTy).Contents (Elt F) → (⟨S4096x4096, .f32⟩ : BufTy).Contents (Elt F)),
    binary main_v6 main_v7 main_v8 (addf : (⟨S4096x4096, .f32⟩ : BufTy).Contents (Elt F) → (⟨S4096x4096, .f32⟩ : BufTy).Contents (Elt F) → (⟨S4096x4096, .f32⟩ : BufTy).Contents (Elt F)),
    nullary main_cst_0 (constant S_ .f32 0x40000000#32),
    unary main_cst_0 main_v9 (broadcastInDim S4096x4096 ![] bcast_S_S4096x4096 : (⟨S_, .f32⟩ : BufTy).Contents (Elt F) → (⟨S4096x4096, .f32⟩ : BufTy).Contents (Elt F)),
    binary main_v9 main_v3 main_v10 (mulf : (⟨S4096x4096, .f32⟩ : BufTy).Contents (Elt F) → (⟨S4096x4096, .f32⟩ : BufTy).Contents (Elt F) → (⟨S4096x4096, .f32⟩ : BufTy).Contents (Elt F)),
    binary main_v8 main_v10 main_v11 (subf : (⟨S4096x4096, .f32⟩ : BufTy).Contents (Elt F) → (⟨S4096x4096, .f32⟩ : BufTy).Contents (Elt F) → (⟨S4096x4096, .f32⟩ : BufTy).Contents (Elt F)),
    nullary main_cst_1 (constant S_ .f32 0x00000000#32),
    unary main_cst_1 main_v12 (broadcastInDim S4096x4096 ![] bcast_S_S4096x4096 : (⟨S_, .f32⟩ : BufTy).Contents (Elt F) → (⟨S4096x4096, .f32⟩ : BufTy).Contents (Elt F)),
    binary main_v11 main_v12 main_v13 (maximumf : (⟨S4096x4096, .f32⟩ : BufTy).Contents (Elt F) → (⟨S4096x4096, .f32⟩ : BufTy).Contents (Elt F) → (⟨S4096x4096, .f32⟩ : BufTy).Contents (Elt F)),
    unary main_v13 main_v14 (Host.sqrt : (⟨S4096x4096, .f32⟩ : BufTy).Contents (Elt F) → (⟨S4096x4096, .f32⟩ : BufTy).Contents (Elt F)),
    unary main_arg1 main_v15 (broadcastInDim S4096x1 ![0] bcast_S4096_S4096x1_0 : (⟨S4096, .i32⟩ : BufTy).Contents (Elt F) → (⟨S4096x1, .i32⟩ : BufTy).Contents (Elt F)),
    unary main_arg1 main_v16 (broadcastInDim S1x4096 ![1] bcast_S4096_S1x4096_1 : (⟨S4096, .i32⟩ : BufTy).Contents (Elt F) → (⟨S1x4096, .i32⟩ : BufTy).Contents (Elt F)),
    unary main_v15 main_v17 (broadcastInDim S4096x4096 ![0, 1] bcast_S4096x1_S4096x4096_0_1 : (⟨S4096x1, .i32⟩ : BufTy).Contents (Elt F) → (⟨S4096x4096, .i32⟩ : BufTy).Contents (Elt F)),
    unary main_v16 main_v18 (broadcastInDim S4096x4096 ![0, 1] bcast_S1x4096_S4096x4096_0_1 : (⟨S1x4096, .i32⟩ : BufTy).Contents (Elt F) → (⟨S4096x4096, .i32⟩ : BufTy).Contents (Elt F)),
    binary main_v17 main_v18 main_v19 (cmpi .eq : (⟨S4096x4096, .i32⟩ : BufTy).Contents (Elt F) → (⟨S4096x4096, .i32⟩ : BufTy).Contents (Elt F) → (⟨S4096x4096, .i1⟩ : BufTy).Contents (Elt F)),
    nullary main_v20 (iotaInDim S4096x4096 32 0),
    nullary main_v21 (iotaInDim S4096x4096 32 1),
    nullary main_c (constantI S_ 32 0#32),
    unary main_c main_v22 (broadcastInDim S4096x4096 ![] bcast_S_S4096x4096 : (⟨S_, .i32⟩ : BufTy).Contents (Elt F) → (⟨S4096x4096, .i32⟩ : BufTy).Contents (Elt F)),
    binary main_v20 main_v22 main_v23 (addi : (⟨S4096x4096, .i32⟩ : BufTy).Contents (Elt F) → (⟨S4096x4096, .i32⟩ : BufTy).Contents (Elt F) → (⟨S4096x4096, .i32⟩ : BufTy).Contents (Elt F)),
    binary main_v23 main_v21 main_v24 (cmpi .eq : (⟨S4096x4096, .i32⟩ : BufTy).Contents (Elt F) → (⟨S4096x4096, .i32⟩ : BufTy).Contents (Elt F) → (⟨S4096x4096, .i1⟩ : BufTy).Contents (Elt F)),
    unary main_v24 main_v25 (noti : (⟨S4096x4096, .i1⟩ : BufTy).Contents (Elt F) → (⟨S4096x4096, .i1⟩ : BufTy).Contents (Elt F)),
    binary main_v19 main_v25 main_v26 (andi : (⟨S4096x4096, .i1⟩ : BufTy).Contents (Elt F) → (⟨S4096x4096, .i1⟩ : BufTy).Contents (Elt F) → (⟨S4096x4096, .i1⟩ : BufTy).Contents (Elt F)),
    unary main_v19 main_v27 (noti : (⟨S4096x4096, .i1⟩ : BufTy).Contents (Elt F) → (⟨S4096x4096, .i1⟩ : BufTy).Contents (Elt F)),
    nullary main_cst_2 (constant S_ .f32 0xFF800000#32),
    TRef.unary (TRef.of (T := ⟨S_, .f32⟩) main_cst_2) (TRef.of (T := ⟨S4096x4096, .f32⟩) main_call0_v0) (broadcastInDim S4096x4096 ![] bcast_S_S4096x4096),
    TRef.ternary (TRef.of (T := ⟨S4096x4096, .i1⟩) main_v26) (TRef.of (T := ⟨S4096x4096, .f32⟩) main_v14) (TRef.of (T := ⟨S4096x4096, .f32⟩) main_call0_v0) (TRef.of (T := ⟨S4096x4096, .f32⟩) main_v28) select,
    nullary main_cst_3 (constant S_ .f32 0xFF800000#32),
    binary main_v28 main_cst_3 main_v29 ((fun x v => Host.reduce FloatOps.maximumf x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    nullary main_cst_4 (constant S_ .f32 0x7F800000#32),
    TRef.unary (TRef.of (T := ⟨S_, .f32⟩) main_cst_4) (TRef.of (T := ⟨S4096x4096, .f32⟩) main_call1_v0) (broadcastInDim S4096x4096 ![] bcast_S_S4096x4096),
    TRef.ternary (TRef.of (T := ⟨S4096x4096, .i1⟩) main_v27) (TRef.of (T := ⟨S4096x4096, .f32⟩) main_v14) (TRef.of (T := ⟨S4096x4096, .f32⟩) main_call1_v0) (TRef.of (T := ⟨S4096x4096, .f32⟩) main_v30) select,
    nullary main_cst_5 (constant S_ .f32 0x7F800000#32),
    binary main_v30 main_cst_5 main_v31 ((fun x v => Host.reduce FloatOps.minimumf x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    nullary main_c_6 (constantI S_ 1 0#1),
    binary main_v26 main_c_6 main_v32 ((fun x v => Host.reduce IntOp.ori x v reducesTo_S4096x4096_S4096_d1 h_S_) : (⟨S4096x4096, .i1⟩ : BufTy).Contents (Elt F) → (⟨S_, .i1⟩ : BufTy).Contents (Elt F) → (⟨S4096, .i1⟩ : BufTy).Contents (Elt F)),
    nullary main_c_7 (constantI S_ 1 0#1),
    binary main_v27 main_c_7 main_v33 ((fun x v => Host.reduce IntOp.ori x v reducesTo_S4096x4096_S4096_d1 h_S_) : (⟨S4096x4096, .i1⟩ : BufTy).Contents (Elt F) → (⟨S_, .i1⟩ : BufTy).Contents (Elt F) → (⟨S4096, .i1⟩ : BufTy).Contents (Elt F)),
    binary main_v32 main_v33 main_v34 (andi : (⟨S4096, .i1⟩ : BufTy).Contents (Elt F) → (⟨S4096, .i1⟩ : BufTy).Contents (Elt F) → (⟨S4096, .i1⟩ : BufTy).Contents (Elt F)),
    binary main_v29 main_v31 main_v35 (subf : (⟨S4096, .f32⟩ : BufTy).Contents (Elt F) → (⟨S4096, .f32⟩ : BufTy).Contents (Elt F) → (⟨S4096, .f32⟩ : BufTy).Contents (Elt F)),
    nullary main_cst_8 (constant S_ .f32 0x3E99999A#32),
    unary main_cst_8 main_v36 (broadcastInDim S4096 ![] bcast_S_S4096 : (⟨S_, .f32⟩ : BufTy).Contents (Elt F) → (⟨S4096, .f32⟩ : BufTy).Contents (Elt F)),
    binary main_v35 main_v36 main_v37 (addf : (⟨S4096, .f32⟩ : BufTy).Contents (Elt F) → (⟨S4096, .f32⟩ : BufTy).Contents (Elt F) → (⟨S4096, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S4096, .f32⟩) main_call2_v0) (broadcastInDim S4096 ![] bcast_S_S4096),
    TRef.binary (TRef.of (T := ⟨S4096, .f32⟩) main_v37) (TRef.of (T := ⟨S4096, .f32⟩) main_call2_v0) (TRef.of (T := ⟨S4096, .f32⟩) main_v38) maximumf,
    nullary main_cst_9 (constant S_ .f32 0x00000000#32),
    TRef.unary (TRef.of (T := ⟨S_, .f32⟩) main_cst_9) (TRef.of (T := ⟨S_, .f32⟩) main_call3_v0) id,
    TRef.unary (TRef.of (T := ⟨S_, .f32⟩) main_call3_v0) (TRef.of (T := ⟨S4096, .f32⟩) main_call3_v1) (broadcastInDim S4096 ![] bcast_S_S4096),
    TRef.ternary (TRef.of (T := ⟨S4096, .i1⟩) main_v34) (TRef.of (T := ⟨S4096, .f32⟩) main_v38) (TRef.of (T := ⟨S4096, .f32⟩) main_call3_v1) (TRef.of (T := ⟨S4096, .f32⟩) main_v39) select,
    unary main_v34 main_v40 (uitofp .f32 : (⟨S4096, .i1⟩ : BufTy).Contents (Elt F) → (⟨S4096, .f32⟩ : BufTy).Contents (Elt F)),
    nullary main_cst_10 (constant S_ .f32 0x00000000#32),
    binary main_v40 main_cst_10 main_v41 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    nullary main_cst_11 (constant S_ .f32 0x00000000#32),
    binary main_v41 main_cst_11 main_v42 (cmpf .ogt : (⟨S_, .f32⟩ : BufTy).Contents (Elt F) → (⟨S_, .f32⟩ : BufTy).Contents (Elt F) → (⟨S_, .i1⟩ : BufTy).Contents (Elt F)),
    nullary main_cst_12 (constant S_ .f32 0x00000000#32),
    binary main_v39 main_cst_12 main_v43 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    nullary main_cst_13 (constant S_ .f32 0x3F800000#32),
    binary main_v41 main_cst_13 main_v44 (maximumf : (⟨S_, .f32⟩ : BufTy).Contents (Elt F) → (⟨S_, .f32⟩ : BufTy).Contents (Elt F) → (⟨S_, .f32⟩ : BufTy).Contents (Elt F)),
    binary main_v43 main_v44 main_v45 (Host.divf : (⟨S_, .f32⟩ : BufTy).Contents (Elt F) → (⟨S_, .f32⟩ : BufTy).Contents (Elt F) → (⟨S_, .f32⟩ : BufTy).Contents (Elt F)),
    nullary main_cst_14 (constant S_ .f32 0x00000000#32),
    TRef.unary (TRef.of (T := ⟨S_, .f32⟩) main_cst_14) (TRef.of (T := ⟨S_, .f32⟩) main_call4_v0) id,
    TRef.ternary (TRef.of (T := ⟨S_, .i1⟩) main_v42) (TRef.of (T := ⟨S_, .f32⟩) main_v45) (TRef.of (T := ⟨S_, .f32⟩) main_call4_v0) (TRef.of (T := ⟨S_, .f32⟩) main_v46) select ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., nullary_bufs_sub .., binary_bufs_sub .., unary_bufs_sub .., binary_bufs_sub .., unary_bufs_sub .., unary_bufs_sub .., unary_bufs_sub .., unary_bufs_sub .., binary_bufs_sub .., nullary_bufs_sub .., unary_bufs_sub .., binary_bufs_sub .., binary_bufs_sub .., nullary_bufs_sub .., unary_bufs_sub .., binary_bufs_sub .., unary_bufs_sub .., unary_bufs_sub .., unary_bufs_sub .., unary_bufs_sub .., unary_bufs_sub .., binary_bufs_sub .., nullary_bufs_sub .., nullary_bufs_sub .., nullary_bufs_sub .., unary_bufs_sub .., binary_bufs_sub .., binary_bufs_sub .., unary_bufs_sub .., binary_bufs_sub .., unary_bufs_sub .., nullary_bufs_sub .., unary_bufs_sub .., ternary_bufs_sub .., nullary_bufs_sub .., binary_bufs_sub .., nullary_bufs_sub .., unary_bufs_sub .., ternary_bufs_sub .., nullary_bufs_sub .., binary_bufs_sub .., nullary_bufs_sub .., binary_bufs_sub .., nullary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., binary_bufs_sub .., nullary_bufs_sub .., binary_bufs_sub .., nullary_bufs_sub .., binary_bufs_sub .., nullary_bufs_sub .., binary_bufs_sub .., binary_bufs_sub .., nullary_bufs_sub .., unary_bufs_sub .., ternary_bufs_sub ..⟩

/-! ## The result as a function of the arguments -/

section Chain

variable (X : FVec F S4096x256 .f32) (lab : IVec S4096 32)

/-- A scalar word spread over the square matrix. -/
def splatSq (w : BitVec 32) : FVec F S4096x4096 .f32 :=
  broadcastInDim S4096x4096 ![] bcast_S_S4096x4096 (constant (F := F) S_ .f32 w)

/-- A scalar word spread over a vector of rows. -/
def splatRow (w : BitVec 32) : FVec F S4096 .f32 :=
  broadcastInDim S4096 ![] bcast_S_S4096 (constant (F := F) S_ .f32 w)

/-- A vector over the rows, repeated along the second axis: entry (i, j) is the vector's entry i. -/
def alongRows {α : Type} (v : S4096.Idx → α) : S4096x4096.Idx → α :=
  broadcastInDim S4096x4096 ![0, 1] bcast_S4096x1_S4096x4096_0_1 (broadcastInDim S4096x1 ![0] bcast_S4096_S4096x1_0 v)

/-- A vector over the rows, repeated along the first axis: entry (i, j) is the vector's entry j. -/
def alongCols {α : Type} (v : S4096.Idx → α) : S4096x4096.Idx → α :=
  broadcastInDim S4096x4096 ![0, 1] bcast_S1x4096_S4096x4096_0_1 (broadcastInDim S1x4096 ![1] bcast_S4096_S1x4096_1 v)

/-- The squared norm of each row: the sum over the second axis of the entrywise squares, from zero. -/
def sqNorm : FVec F S4096 .f32 :=
  Host.reduceAdd (mulf X X) (constant (F := F) S_ .f32 0x00000000#32) reducesTo_S4096x256_S4096_d1 h_S_

/-- The matrix of inner products of the rows: the argument times its transpose. -/
def gramM : FVec F S4096x4096 .f32 :=
  Host.dotGeneral dot_S4096x256_S256x4096_S4096x4096_1_0_0_1_n_n none X
    (transpose S256x4096 [1, 0] X transposes_S4096x256_S256x4096_1_0)

/-- The squared distances: |x_i|² + |x_j|² − 2 ⟨x_i, x_j⟩. -/
def sqDist : FVec F S4096x4096 .f32 :=
  subf (addf (alongRows (sqNorm X)) (alongCols (sqNorm X))) (mulf (splatSq 0x40000000#32) (gramM X))

/-- The distances: the square root of the squared distance cut off below at zero. -/
def distM : FVec F S4096x4096 .f32 :=
  Host.sqrt (maximumf (sqDist X) (splatSq 0x00000000#32))

/-- Entry (i, j) says that rows i and j carry the same label. -/
def sameLabel : IVec S4096x4096 1 :=
  cmpi .eq (alongRows lab) (alongCols lab)

/-- Entry (i, j) says that i and j are different rows. -/
def offDiag : IVec S4096x4096 1 :=
  noti (cmpi .eq (addi (iotaInDim S4096x4096 32 0) (broadcastInDim S4096x4096 ![] bcast_S_S4096x4096 (constantI S_ 32 0#32)))
    (iotaInDim S4096x4096 32 1))

/-- The mask of positives: same label, another row. -/
def posMask : IVec S4096x4096 1 := andi (sameLabel lab) offDiag

/-- The mask of negatives: another label. -/
def negMask : IVec S4096x4096 1 := noti (sameLabel lab)

/-- The hardest positive of each row: the largest distance over the positives, from −∞. -/
def hardPos : FVec F S4096 .f32 :=
  Host.reduce FloatOps.maximumf (select (posMask lab) (distM X) (splatSq 0xFF800000#32))
    (constant (F := F) S_ .f32 0xFF800000#32) reducesTo_S4096x4096_S4096_d1 h_S_

/-- The hardest negative of each row: the smallest distance over the negatives, from +∞. -/
def hardNeg : FVec F S4096 .f32 :=
  Host.reduce FloatOps.minimumf (select (negMask lab) (distM X) (splatSq 0x7F800000#32))
    (constant (F := F) S_ .f32 0x7F800000#32) reducesTo_S4096x4096_S4096_d1 h_S_

/-- Whether each row has a positive. -/
def hasPos : IVec S4096 1 :=
  Host.reduce IntOp.ori (posMask lab) (constantI S_ 1 0#1) reducesTo_S4096x4096_S4096_d1 h_S_

/-- Whether each row has a negative. -/
def hasNeg : IVec S4096 1 :=
  Host.reduce IntOp.ori (negMask lab) (constantI S_ 1 0#1) reducesTo_S4096x4096_S4096_d1 h_S_

/-- Whether each row counts: it has a positive and a negative. -/
def validRow : IVec S4096 1 := andi (hasPos lab) (hasNeg lab)

/-- The hinge of each row: hardest positive minus hardest negative plus the margin, cut off below at zero. -/
def hingeRow : FVec F S4096 .f32 :=
  maximumf (addf (subf (hardPos X lab) (hardNeg X lab)) (splatRow 0x3E99999A#32)) (splatRow 0x00000000#32)

/-- The loss of each row: its hinge when it counts, zero otherwise. -/
def lossRow : FVec F S4096 .f32 :=
  select (validRow lab) (hingeRow X lab)
    (broadcastInDim S4096 ![] bcast_S_S4096 (id (constant (F := F) S_ .f32 0x00000000#32)))

/-- One or zero for each row, as it counts or not. -/
def countRow : FVec F S4096 .f32 := uitofp (F := F) .f32 (validRow lab)

/-- The number of rows that count: the sum of the ones, from zero. -/
def countTotal : FVec F S_ .f32 :=
  Host.reduceAdd (countRow (F := F) lab) (constant (F := F) S_ .f32 0x00000000#32) reducesTo_S4096_S_d0 h_S_

/-- The sum of the row losses, from zero. -/
def lossTotal : FVec F S_ .f32 :=
  Host.reduceAdd (lossRow X lab) (constant (F := F) S_ .f32 0x00000000#32) reducesTo_S4096_S_d0 h_S_

/-- The result: the sum of the losses over the larger of the count and one when the count is positive, zero otherwise. -/
def refResult : FVec F S_ .f32 :=
  select (cmpf .ogt (countTotal (F := F) lab) (constant (F := F) S_ .f32 0x00000000#32))
    (Host.divf (lossTotal X lab) (maximumf (countTotal (F := F) lab) (constant (F := F) S_ .f32 0x3F800000#32)))
    (id (constant (F := F) S_ .f32 0x00000000#32))

end Chain

/-! ## The run -/

set_option maxRecDepth 8192 in
set_option maxHeartbeats 28400000 in
/-- On every device, for any float values, from any memory with zero counters: every weakly fair execution of
    the program terminates with the result array at `refResult` of the two arguments' initial contents, and
    the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v46)
          = refResult (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v46).trans (by after_results_simp <;> rfl),
      (h c main_arg0).trans (by after_results_simp <;> rfl),
      (h c main_arg1).trans (by after_results_simp <;> rfl)⟩)
    (run_seq scopedRefs_eq scopedSems_eq defs main (fun _ => ops) main_eq (fun _ => ops_sub) m ρ)

end Cert.ReferenceIdeal.RefRun

end
-- ==== Proof.RefDist.lean ====
/-
  The reference's distances, read at an index.

  Read at row i (and row j) of the argument, at the exact values: the squared norm of a row is the sum of the
  squares of its entries; the product of the argument with its transpose is the matrix of inner products of the
  rows; the distance matrix is the square root of |x_i|² + |x_j|² − 2 ⟨x_i, x_j⟩ cut off below at zero.  Each
  array of the reference's chain is shown equal, entry by entry, to the corresponding function of the
  specification.
-/
import proofs.«102428_j23802708754519_2_alg».proof.Proof.RefRun
import proofs.«102428_j23802708754519_2_alg».proof.Proof.Spec
import Idealize.ShloMosaic.Lib.Pipeline.Value
import Idealize.ShloMosaic.Lib.ValueIdx
import Idealize.ShloMosaic.Lib.Affine
import Idealize.ShloMosaic.PureOps.Ideal.Laws
import Idealize.ShloMosaic.PureOps.Reduce

noncomputable section

open scoped BigOperators

namespace Cert.ReferenceIdeal.RefValue

open Cert.ReferenceIdeal Cert.ReferenceIdeal.Gen Cert.ReferenceIdeal.RefRun Idealize.ShloMosaic Idealize.ShloMosaic.ValueIdx

variable (X : FVec Ideal S4096x256 .f32)

/-! ## Vectors repeated along an axis, and scalars spread over an array -/

/-- Entry (i, j) of a vector repeated along the second axis is its entry i. -/
theorem alongRows_apply {α : Type} (v : S4096.Idx → α) (i j : Fin 4096) : alongRows v (ix2 i j) = v (ix1 i) := by
  unfold alongRows broadcastInDim
  refine congrArg v (funext fun a => ?_)
  match a with
  | ⟨0, _⟩ => exact Fin.ext rfl

/-- Entry (i, j) of a vector repeated along the first axis is its entry j. -/
theorem alongCols_apply {α : Type} (v : S4096.Idx → α) (i j : Fin 4096) : alongCols v (ix2 i j) = v (ix1 j) := by
  unfold alongCols broadcastInDim
  refine congrArg v (funext fun a => ?_)
  match a with
  | ⟨0, _⟩ => exact Fin.ext rfl

/-- Every entry of a scalar spread over the square matrix is the scalar. -/
theorem splatSq_apply (w : BitVec 32) (q : S4096x4096.Idx) : splatSq (F := Ideal) w q = Ideal.ofBits .f32 w := rfl

/-- Every entry of a scalar spread over the rows is the scalar. -/
theorem splatRow_apply (w : BitVec 32) (q : S4096.Idx) : splatRow (F := Ideal) w q = Ideal.ofBits .f32 w := rfl

/-! ## The squared norms -/

/-- The squared norm of row i is the sum of the squares of its entries (the sum starts from zero). -/
theorem sqNorm_apply (i : Fin 4096) : sqNorm X (ix1 i) = Cert.Triplet.sq X i := by
  unfold sqNorm Cert.Triplet.sq
  simp only [Host.reduceAdd, Ideal.hostReduceAdd_def]
  rw [Ideal.hostReduceAdd_single reducesTo_S4096x256_S4096_d1 (by decide)]
  rw [constant_apply, Ideal.ofBits_zero_f32, zero_add]
  refine Finset.sum_congr rfl fun k _ => ?_
  rw [mulf_apply]
  have e : (Shape.Reduces.lift (s := S4096x256) (a := 1) (t := S4096) (by decide) (ix1 i) k) = ix2 i k :=
    funext fun a => Fin.ext (by match a with | ⟨0, _⟩ => rfl | ⟨1, _⟩ => rfl)
  rw [e]; rfl

/-! ## The matrix of inner products and the distances -/

/-- The left factor of entry q of the product, at contraction index c, sits in row q₀ … -/
theorem lhsIdx_0 (q : S4096x4096.Idx) (c : dot_S4096x256_S256x4096_S4096x4096_1_0_0_1_n_n.contr.Idx) : (dot_S4096x256_S256x4096_S4096x4096_1_0_0_1_n_n.lhsIdx q c 0).val = (q 0).val := by
  unfold DotDims.lhsIdx
  rw [dif_neg (show ¬(0 : Fin S4096x256.rank) ∈ dot_S4096x256_S256x4096_S4096x4096_1_0_0_1_n_n.lhsBatch by decide),
    dif_pos (show (0 : Fin S4096x256.rank) ∈ dot_S4096x256_S256x4096_S4096x4096_1_0_0_1_n_n.lhsNonContracting by decide)]
  rfl

/-- … and column c. -/
theorem lhsIdx_1 (q : S4096x4096.Idx) (c : dot_S4096x256_S256x4096_S4096x4096_1_0_0_1_n_n.contr.Idx) : (dot_S4096x256_S256x4096_S4096x4096_1_0_0_1_n_n.lhsIdx q c 1).val = (c ⟨0, by decide⟩).val :=
  dot_S4096x256_S256x4096_S4096x4096_1_0_0_1_n_n.lhsIdx_val_of_single rfl q c

/-- The right factor of entry q of the product, at contraction index c, sits in row c … -/
theorem rhsIdx_0 (q : S4096x4096.Idx) (c : dot_S4096x256_S256x4096_S4096x4096_1_0_0_1_n_n.contr.Idx) : (dot_S4096x256_S256x4096_S4096x4096_1_0_0_1_n_n.rhsIdx q c 0).val = (c ⟨0, by decide⟩).val :=
  dot_S4096x256_S256x4096_S4096x4096_1_0_0_1_n_n.rhsIdx_val_of_single rfl q c

/-- … and column q₁. -/
theorem rhsIdx_1 (q : S4096x4096.Idx) (c : dot_S4096x256_S256x4096_S4096x4096_1_0_0_1_n_n.contr.Idx) : (dot_S4096x256_S256x4096_S4096x4096_1_0_0_1_n_n.rhsIdx q c 1).val = (q 1).val := by
  unfold DotDims.rhsIdx
  rw [dif_neg (show ¬(1 : Fin S256x4096.rank) ∈ dot_S4096x256_S256x4096_S4096x4096_1_0_0_1_n_n.rhsBatch by decide),
    dif_pos (show (1 : Fin S256x4096.rank) ∈ dot_S4096x256_S256x4096_S4096x4096_1_0_0_1_n_n.rhsNonContracting by decide)]
  rfl

/-- Entry (i, j) of the argument times its transpose is the inner product of rows i and j. -/
theorem gramM_apply (i j : Fin 4096) : gramM X (ix2 i j) = Cert.Triplet.gram X i j := by
  unfold gramM Cert.Triplet.gram
  simp only [Host.dotGeneral]
  rw [Ideal.dotGeneral_apply, ← Equiv.sum_comp (ValueIdx.contrEquiv1 dot_S4096x256_S256x4096_S4096x4096_1_0_0_1_n_n 256 rfl rfl).symm]
  refine Finset.sum_congr rfl fun k _ => ?_
  have hk := ValueIdx.contrEquiv1_symm_val dot_S4096x256_S256x4096_S4096x4096_1_0_0_1_n_n 256 rfl rfl k
  have el : dot_S4096x256_S256x4096_S4096x4096_1_0_0_1_n_n.lhsIdx (ix2 i j) ((ValueIdx.contrEquiv1 dot_S4096x256_S256x4096_S4096x4096_1_0_0_1_n_n 256 rfl rfl).symm k) = ix2 i k :=
    funext fun a => Fin.ext (by
      match a with
      | ⟨0, _⟩ => exact lhsIdx_0 _ _
      | ⟨1, _⟩ => exact (lhsIdx_1 _ _).trans hk)
  have er : dot_S4096x256_S256x4096_S4096x4096_1_0_0_1_n_n.rhsIdx (ix2 i j) ((ValueIdx.contrEquiv1 dot_S4096x256_S256x4096_S4096x4096_1_0_0_1_n_n 256 rfl rfl).symm k) = ix2 k j :=
    funext fun a => Fin.ext (by
      match a with
      | ⟨0, _⟩ => exact (rhsIdx_0 _ _).trans hk
      | ⟨1, _⟩ => exact rhsIdx_1 _ _)
  rw [el, er]
  refine congrArg (X (ix2 i k) * ·) ?_
  exact transpose_apply [1, 0] X transposes_S4096x256_S256x4096_1_0 (ix2 k j) (ix2 j k) (fun b => match b with
    | ⟨0, _⟩ => rfl
    | ⟨1, _⟩ => rfl)

/-- Entry (i, j) of the squared distances. -/
theorem sqDist_apply (i j : Fin 4096) :
    sqDist X (ix2 i j) = Cert.Triplet.sq X i + Cert.Triplet.sq X j - Cert.Triplet.twoW * Cert.Triplet.gram X i j := by
  unfold sqDist
  rw [subf_apply, addf_apply, mulf_apply, alongRows_apply, alongCols_apply, sqNorm_apply, sqNorm_apply, gramM_apply,
    splatSq_apply]

/-- Entry (i, j) of the distance matrix is the specification's distance between rows i and j. -/
theorem distM_apply (i j : Fin 4096) : distM X (ix2 i j) = Cert.Triplet.dist X i j := by
  unfold distM Cert.Triplet.dist
  show Ideal.sqrt (maximumf (sqDist X) (splatSq 0x00000000#32) (ix2 i j)) = _
  rw [maximumf_apply, sqDist_apply, splatSq_apply]

end Cert.ReferenceIdeal.RefValue

end
-- ==== Proof.RefValue.lean ====
/-
  The reference's result is the specification's loss, with "row counts" read off the masks.

  Row j is a positive for row i when the labels agree and j ≠ i, a negative when the labels differ.  Read at an
  index, the reference's two masks say exactly that; the largest masked distance of a row (from −∞) and the
  smallest (from +∞) are the specification's two extremes; the "or" of a row of a mask says that the row has a
  positive, or a negative; a row's loss is its hinge when it has both and zero otherwise, its count one or zero;
  the two totals are sums over the rows from the zero word; and the last lines are the specification's mean.
-/
import proofs.«102428_j23802708754519_2_alg».proof.Proof.RefDist

noncomputable section

open scoped BigOperators

namespace Cert.ReferenceIdeal.RefValue

open Cert.ReferenceIdeal Cert.ReferenceIdeal.Gen Cert.ReferenceIdeal.RefRun Idealize.ShloMosaic Idealize.ShloMosaic.ValueIdx

variable (X : FVec Ideal S4096x256 .f32) (lab : IVec S4096 32)

/-! ## Words -/

/-- The word of −∞. -/
theorem ofBits_negInf : Ideal.ofBits .f32 0xFF800000#32 = (⊥ : EReal) := by simp [Ideal.ofBits, Ideal.ieee]

/-- The word of +∞. -/
theorem ofBits_posInf : Ideal.ofBits .f32 0x7F800000#32 = (⊤ : EReal) := by simp [Ideal.ofBits, Ideal.ieee]

/-- Two row numbers, as 32-bit words (the first with zero added), are equal exactly when the rows are the same. -/
theorem ofNat_add_zero_eq_iff (i j : Fin 4096) :
    IntOp.addi (BitVec.ofNat 32 i.val) 0#32 = BitVec.ofNat 32 j.val ↔ i = j := by
  unfold IntOp.addi
  rw [BitVec.add_zero]
  constructor
  · intro h
    have h' := congrArg BitVec.toNat h
    rw [BitVec.toNat_ofNat, BitVec.toNat_ofNat] at h'
    have hi := i.isLt; have hj := j.isLt
    exact Fin.ext (by omega)
  · intro h; rw [h]

/-- A fold of "or" from the zero bit over a finite family of bits is one exactly when some bit is one. -/
theorem fold_ori_eq_one {ι : Type} (s : Finset ι) (f : ι → BitVec 1) :
    s.fold IntOp.ori 0#1 f = 1#1 ↔ ∃ k ∈ s, f k = 1#1 := by
  classical
  induction s using Finset.induction_on with
  | empty => simp
  | insert a s ha ih =>
    rw [Finset.fold_insert ha, IntOp.ori_eq_one, ih]
    constructor
    · rintro (h | ⟨k, hk, hfk⟩)
      · exact ⟨a, Finset.mem_insert_self a s, h⟩
      · exact ⟨k, Finset.mem_insert_of_mem hk, hfk⟩
    · rintro ⟨k, hk, hfk⟩
      rcases Finset.mem_insert.1 hk with rfl | hk
      · exact Or.inl hfk
      · exact Or.inr ⟨k, hk, hfk⟩

/-! ## The masks -/

/-- The index of the square matrix that lies over row i at column j. -/
theorem lift_row (i j : Fin 4096) :
    Shape.Reduces.lift (s := S4096x4096) (a := 1) (t := S4096) (by decide) (ix1 i) j = ix2 i j :=
  funext fun a => Fin.ext (by match a with | ⟨0, _⟩ => rfl | ⟨1, _⟩ => rfl)

/-- Entry (i, j) of the label comparison says that rows i and j carry the same label. -/
theorem sameLabel_iff (i j : Fin 4096) : sameLabel lab (ix2 i j) = 1#1 ↔ lab (ix1 i) = lab (ix1 j) := by
  unfold sameLabel
  show IntOp.cmpi .eq (alongRows lab (ix2 i j)) (alongCols lab (ix2 i j)) = 1#1 ↔ _
  rw [alongRows_apply, alongCols_apply]
  exact IntOp.cmpi_eq

/-- Entry (i, j) of the row-number comparison, negated, says that i and j are different rows. -/
theorem offDiag_iff (i j : Fin 4096) : offDiag (ix2 i j) = 1#1 ↔ i ≠ j := by
  unfold offDiag
  show ~~~(IntOp.cmpi .eq (IntOp.addi (BitVec.ofNat 32 i.val) 0#32) (BitVec.ofNat 32 j.val)) = 1#1 ↔ _
  rw [IntOp.not_eq_one, IntOp.cmpi_eq, ofNat_add_zero_eq_iff]

/-- The mask of positives says "positive". -/
theorem posMask_iff (i j : Fin 4096) : posMask lab (ix2 i j) = 1#1 ↔ Cert.Triplet.pos lab i j := by
  unfold posMask Cert.Triplet.pos
  show IntOp.andi (sameLabel lab (ix2 i j)) (offDiag (ix2 i j)) = 1#1 ↔ _
  rw [IntOp.andi_eq_one, sameLabel_iff, offDiag_iff]

/-- The mask of negatives says "negative". -/
theorem negMask_iff (i j : Fin 4096) : negMask lab (ix2 i j) = 1#1 ↔ Cert.Triplet.neg lab i j := by
  unfold negMask Cert.Triplet.neg
  show ~~~(sameLabel lab (ix2 i j)) = 1#1 ↔ _
  rw [IntOp.not_eq_one, sameLabel_iff]

/-! ## The extremes -/

/-- The largest masked distance of row i is the specification's hardest positive. -/
theorem hardPos_apply (i : Fin 4096) : hardPos X lab (ix1 i) = Cert.Triplet.hp X lab i := by
  unfold hardPos Cert.Triplet.hp
  refine (Host.reduce_eq_fold_single FloatOps.maximumf _ _ reducesTo_S4096x4096_S4096_d1 (by decide) h_S_ (ix1 i)).trans ?_
  have hinit : constant (F := Ideal) S_ .f32 0xFF800000#32 (Shape.Idx.first h_S_) = (⊥ : EReal) := ofBits_negInf
  have hf : (fun j : Fin 4096 => select (posMask lab) (distM X) (splatSq (F := Ideal) 0xFF800000#32)
        (Shape.Reduces.lift (s := S4096x4096) (a := 1) (t := S4096) (by decide) (ix1 i) j))
      = fun j : Fin 4096 => if Cert.Triplet.pos lab i j then Cert.Triplet.dist X i j else ⊥ := funext fun j => by
    rw [lift_row, select_apply, distM_apply, splatSq_apply, ofBits_negInf]
    exact Cert.Triplet.select_eq_ite _ _ (posMask_iff lab i j) _ _
  exact congrArg₂ (fun b f => (Finset.univ : Finset (Fin 4096)).fold max b f) hinit hf

/-- The smallest masked distance of row i is the specification's hardest negative. -/
theorem hardNeg_apply (i : Fin 4096) : hardNeg X lab (ix1 i) = Cert.Triplet.hn X lab i := by
  unfold hardNeg Cert.Triplet.hn
  refine (Host.reduce_eq_fold_single FloatOps.minimumf _ _ reducesTo_S4096x4096_S4096_d1 (by decide) h_S_ (ix1 i)).trans ?_
  have hinit : constant (F := Ideal) S_ .f32 0x7F800000#32 (Shape.Idx.first h_S_) = (⊤ : EReal) := ofBits_posInf
  have hf : (fun j : Fin 4096 => select (negMask lab) (distM X) (splatSq (F := Ideal) 0x7F800000#32)
        (Shape.Reduces.lift (s := S4096x4096) (a := 1) (t := S4096) (by decide) (ix1 i) j))
      = fun j : Fin 4096 => if Cert.Triplet.neg lab i j then Cert.Triplet.dist X i j else ⊤ := funext fun j => by
    rw [lift_row, select_apply, distM_apply, splatSq_apply, ofBits_posInf]
    exact Cert.Triplet.select_eq_ite _ _ (negMask_iff lab i j) _ _
  exact congrArg₂ (fun b f => (Finset.univ : Finset (Fin 4096)).fold min b f) hinit hf

/-! ## Which rows count -/

/-- Row i has a positive exactly when the "or" of its row of the positives' mask is one. -/
theorem hasPos_iff (i : Fin 4096) : hasPos lab (ix1 i) = 1#1 ↔ ∃ j, Cert.Triplet.pos lab i j := by
  unfold hasPos
  rw [Host.reduce_eq_fold_single IntOp.ori _ _ reducesTo_S4096x4096_S4096_d1 (by decide) h_S_ (ix1 i)]
  show (Finset.univ : Finset (Fin 4096)).fold IntOp.ori 0#1
      (fun j => posMask lab (Shape.Reduces.lift (s := S4096x4096) (a := 1) (t := S4096) (by decide) (ix1 i) j)) = 1#1 ↔ _
  refine (fold_ori_eq_one _ _).trans ?_
  constructor
  · rintro ⟨j, -, hj⟩
    exact ⟨j, (posMask_iff lab i j).1 ((congrArg (posMask lab) (lift_row i j)).symm.trans hj)⟩
  · rintro ⟨j, hj⟩
    exact ⟨j, Finset.mem_univ j, (congrArg (posMask lab) (lift_row i j)).trans ((posMask_iff lab i j).2 hj)⟩

/-- Row i has a negative exactly when the "or" of its row of the negatives' mask is one. -/
theorem hasNeg_iff (i : Fin 4096) : hasNeg lab (ix1 i) = 1#1 ↔ ∃ j, Cert.Triplet.neg lab i j := by
  unfold hasNeg
  rw [Host.reduce_eq_fold_single IntOp.ori _ _ reducesTo_S4096x4096_S4096_d1 (by decide) h_S_ (ix1 i)]
  show (Finset.univ : Finset (Fin 4096)).fold IntOp.ori 0#1
      (fun j => negMask lab (Shape.Reduces.lift (s := S4096x4096) (a := 1) (t := S4096) (by decide) (ix1 i) j)) = 1#1 ↔ _
  refine (fold_ori_eq_one _ _).trans ?_
  constructor
  · rintro ⟨j, -, hj⟩
    exact ⟨j, (negMask_iff lab i j).1 ((congrArg (negMask lab) (lift_row i j)).symm.trans hj)⟩
  · rintro ⟨j, hj⟩
    exact ⟨j, Finset.mem_univ j, (congrArg (negMask lab) (lift_row i j)).trans ((negMask_iff lab i j).2 hj)⟩

/-- The validity bit of row i says that the row counts, read off the masks. -/
theorem validRow_iff (i : Fin 4096) : validRow lab (ix1 i) = 1#1 ↔ Cert.Triplet.countsByMasks lab i := by
  unfold validRow Cert.Triplet.countsByMasks
  show IntOp.andi (hasPos lab (ix1 i)) (hasNeg lab (ix1 i)) = 1#1 ↔ _
  rw [IntOp.andi_eq_one, hasPos_iff, hasNeg_iff]

/-! ## The rows' losses and counts -/

/-- The hinge of row i. -/
theorem hingeRow_apply (i : Fin 4096) : hingeRow X lab (ix1 i) = Cert.Triplet.hinge X lab i := by
  unfold hingeRow Cert.Triplet.hinge
  rw [maximumf_apply, addf_apply, subf_apply, hardPos_apply, hardNeg_apply, splatRow_apply, splatRow_apply]

/-- The loss of row i: its hinge when it counts, zero otherwise. -/
theorem lossRow_apply (i : Fin 4096) :
    lossRow X lab (ix1 i) = Cert.Triplet.rowLoss X lab (Cert.Triplet.countsByMasks lab) i := by
  unfold lossRow Cert.Triplet.rowLoss
  rw [select_apply, hingeRow_apply]
  classical
  exact Cert.Triplet.select_eq_ite _ _ (validRow_iff lab i) _ _

/-- The count of row i: one when it counts, zero otherwise. -/
theorem countRow_apply (i : Fin 4096) :
    countRow (F := Ideal) lab (ix1 i) = Cert.Triplet.rowCount (Cert.Triplet.countsByMasks lab) i := by
  unfold countRow Cert.Triplet.rowCount
  show (((validRow lab (ix1 i)).toNat : ℝ) : EReal) = _
  classical
  by_cases h : Cert.Triplet.countsByMasks lab i
  · rw [if_pos h, (validRow_iff lab i).2 h]; simp
  · rw [if_neg h, eq_zero_of_ne_one (fun e => h ((validRow_iff lab i).1 e))]; simp

/-! ## The totals and the result -/

/-- A rank-1 index set is its one coordinate's range … -/
def idxEquiv1 {n : Nat} : (⟨1, ![n]⟩ : Shape).Idx ≃ Fin n where
  toFun i := i 0
  invFun k := ix1 k
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ k : Fin n, f (ix1 k) := by
  rw [← Equiv.sum_comp (idxEquiv1 (n := n)).symm f]
  rfl

/-- A sum over the rows from the zero word, of a vector known entry by entry. -/
theorem hostSum_eq_total (v : FVec Ideal S4096 .f32) (f : Fin 4096 → EReal) (h : ∀ i, v (ix1 i) = f i) :
    Host.reduceAdd v (constant (F := Ideal) S_ .f32 0x00000000#32) reducesTo_S4096_S_d0 h_S_ = Cert.Triplet.total f := by
  funext q
  unfold Cert.Triplet.total
  simp only [Host.reduceAdd, Ideal.hostReduceAdd_def]
  rw [Ideal.hostReduceAdd_total reducesTo_S4096_S_d0 (fun b => b.elim0), constant_apply, sum_idx1]
  exact congrArg (Cert.Triplet.zeroW + ·) (Finset.sum_congr rfl fun k _ => h k)

/-- The reference's result is the specification's loss, with "row counts" read off the masks. -/
theorem refResult_eq (X : FVec Ideal S4096x256 .f32) (lab : IVec S4096 32) :
    Cert.ReferenceIdeal.RefRun.refResult (F := Ideal) X lab = Cert.Triplet.loss X lab (Cert.Triplet.countsByMasks lab) := by
  have hc : countTotal (F := Ideal) lab = Cert.Triplet.total (Cert.Triplet.rowCount (Cert.Triplet.countsByMasks lab)) :=
    hostSum_eq_total _ _ (countRow_apply lab)
  have hl : lossTotal X lab = Cert.Triplet.total (Cert.Triplet.rowLoss X lab (Cert.Triplet.countsByMasks lab)) :=
    hostSum_eq_total _ _ (lossRow_apply X lab)
  unfold refResult Cert.Triplet.loss
  rw [hc, hl]
  rfl

end Cert.ReferenceIdeal.RefValue

end
-- ==== Proof.KPieces.lean ====
/-
  What one grid point's body leaves in its two output blocks, as values of what it loaded.

  At point `i` the body reads rows `256·i … 256·i + 255` of the embeddings block and the whole block, the matching
  slice of the squared norms and of the labels and their whole rows, and stores one row of 256 losses and one row of
  256 counts.  Each stored row is a single store over the whole output block, so the block ends holding exactly the
  stored value: the body's arithmetic applied to the loaded slices.
-/
import proofs.«102428_j23802708754519_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.KValue

open Cert.KernelIdeal Cert.KernelIdeal.Gen

variable {F : FTy → Type} [FloatOps F] [Named F]

theorem hz : (![0, 0] : Fin 2 → Nat) = fun _ => 0 := funext fun a => by fin_cases a <;> rfl

/-- The 256 rows of the embeddings block that point `i` works on. -/
abbrev rowsOf (i : grid0.Coords) (x0 : Vec F S4096x256 .bf16) : Vec F S256x256 .bf16 :=
  View.ld x0 (Rect.unit (s := S4096x256) (k0_off1 i) S256x256.size (k0_off1_inb i))

/-- The 256 entries of a [1,4096] row that belong to point `i`'s rows. -/
abbrev sliceOf {e : EltTy} (i : grid0.Coords) (x : Vec F S1x4096 e) : Vec F S1x256 e :=
  View.ld x (Rect.unit (s := S1x4096) (k0_off2 i) S1x256.size (k0_off2_inb i))

/-- The loss row the body stores, of the three input blocks. -/
abbrev lossRow (i : grid0.Coords) (x0 : Vec F S4096x256 .bf16) (x1 : Vec F S1x4096 .f32) (x2 : Vec F S1x4096 .i32) : FVec F S1x256 .f32 :=
  k0_pay3 (k0_pay5 (rowsOf i x0) x0 (sliceOf i x1) x1) (k0_pay7 (sliceOf i x2) x2)
    (k0_pay8 i (rowsOf i x0) x0 (sliceOf i x1) x1 (sliceOf i x2) x2)

/-- The count row the body stores, of the three input blocks. -/
abbrev countRow (i : grid0.Coords) (x0 : Vec F S4096x256 .bf16) (x1 : Vec F S1x4096 .f32) (x2 : Vec F S1x4096 .i32) : FVec F S1x256 .f32 :=
  k0_pay4 (k0_pay5 (rowsOf i x0) x0 (sliceOf i x1) x1) (k0_pay7 (sliceOf i x2) x2)
    (k0_pay8 i (rowsOf i x0) x0 (sliceOf i x1) x1 (sliceOf i x2) x2)

/-- The loss block after the body: its one covering store's value. -/
theorem out_loss (c : Dev nD) (i : grid0.Coords) (arg1 : Memref sig .tc .vmem S4096x256 .bf16) (harg1 : arg1.IsWhole) (arg2 : Memref sig .tc .vmem S1x4096 .f32) (harg2 : arg2.IsWhole) (arg3 : Memref sig .tc .vmem S1x4096 .i32) (harg3 : arg3.IsWhole) (arg4 : Memref sig .tc .vmem S1x256 .f32) (harg4 : arg4.IsWhole) (arg5 : Memref sig .tc .vmem S1x256 .f32) (harg5 : arg5.IsWhole)
    (x0 : Vec F S4096x256 .bf16) (x1 : Vec F S1x4096 .f32) (x2 : Vec F S1x4096 .i32) :
    out0_A_3 c i arg1 harg1 arg2 harg2 arg3 harg3 arg4 harg4 arg5 harg5 x0 x1 x2 = lossRow i x0 x1 x2 := by
  unfold out0_A_3
  rw [View.read_writes_eq_canon _ _ _ (cover0_A_3 c i arg1 harg1 arg2 harg2 arg3 harg3 arg4 harg4 arg5 harg5 x0 x1 x2)]
  unfold kernelRun0_A
  dsimp only
  sl_unfold_words
  rw [View.canon_unit_zero hz]
  simp only [View.readAt_eq_ld, harg1.read_unread, harg2.read_unread, harg3.read_unread,
    View.ld_unit_zero (S := S4096x256) hz, View.ld_unit_zero (S := S1x4096) hz]
  rfl

/-- The count block after the body: its one covering store's value. -/
theorem out_count (c : Dev nD) (i : grid0.Coords) (arg1 : Memref sig .tc .vmem S4096x256 .bf16) (harg1 : arg1.IsWhole) (arg2 : Memref sig .tc .vmem S1x4096 .f32) (harg2 : arg2.IsWhole) (arg3 : Memref sig .tc .vmem S1x4096 .i32) (harg3 : arg3.IsWhole) (arg4 : Memref sig .tc .vmem S1x256 .f32) (harg4 : arg4.IsWhole) (arg5 : Memref sig .tc .vmem S1x256 .f32) (harg5 : arg5.IsWhole)
    (x0 : Vec F S4096x256 .bf16) (x1 : Vec F S1x4096 .f32) (x2 : Vec F S1x4096 .i32) :
    out0_A_4 c i arg1 harg1 arg2 harg2 arg3 harg3 arg4 harg4 arg5 harg5 x0 x1 x2 = countRow i x0 x1 x2 := by
  unfold out0_A_4
  rw [View.read_writes_eq_canon _ _ _ (cover0_A_4 c i arg1 harg1 arg2 harg2 arg3 harg3 arg4 harg4 arg5 harg5 x0 x1 x2)]
  unfold kernelRun0_A
  dsimp only
  sl_unfold_words
  rw [View.canon_unit_zero hz]
  simp only [View.readAt_eq_ld, harg1.read_unread, harg2.read_unread, harg3.read_unread,
    View.ld_unit_zero (S := S4096x256) hz, View.ld_unit_zero (S := S1x4096) hz]
  rfl

end Cert.KernelIdeal.KValue

end
-- ==== Proof.KEntry.lean ====
/-
  The three arrays the kernel's region is entered with, read at an index.

  Before the region the program rounds the embeddings to a shorter float format (the identity on the extended reals),
  sums the squares of each row into a vector of squared norms laid out as one row [1,4096], and lays the labels out
  the same way.  So, entering the region: the first array is the embeddings themselves, entry (0, j) of the second
  is the squared norm of row j, and entry (0, j) of the third is label j.
-/
import proofs.«102428_j23802708754519_2_alg».proof.Proof.Gen.KernelIdeal.Frame
import proofs.«102428_j23802708754519_2_alg».proof.Proof.Spec
import Idealize.ShloMosaic.Lib.Pipeline.Value
import Idealize.ShloMosaic.Lib.StableHlo.Run
import Idealize.ShloMosaic.Lib.ValueIdx
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)

namespace Cert.KernelIdeal.KValue

open Cert.KernelIdeal Cert.KernelIdeal.Gen Idealize.ShloMosaic.ValueIdx

variable (m : (ℓ : Loc nD τ sig) → Buf (Elt Ideal) ℓ)

/-- The embeddings as launched on core `c`. -/
abbrev embOf (c : Dev nD) : FVec Ideal S4096x256 .f32 := m ((c : Thread nD τ).loc main_arg0)
/-- The labels as launched on core `c`. -/
abbrev labOf (c : Dev nD) : IVec S4096 32 := m ((c : Thread nD τ).loc main_arg1)

/-- Entering the region, the first array is the embeddings (the format change is the identity here). -/
theorem V_emb_apply (c : Dev nD) (idx : S4096x256.Idx) : (V m c main_v0 : S4096x256.Idx → Elt Ideal .bf16) idx = embOf m c idx := by
  have e : (V m c main_v0 : S4096x256.Idx → Elt Ideal .bf16) = truncf (F := Ideal) .bf16 (embOf m c) bitsLt_bf16_f32 := by
    show StableHlo.after hostOps0 (fun b => m (c, b)) (Proc.devRef .tc main_v0) = _
    after_results
  rw [e]
  rfl

/-- Entering the region, entry (0, j) of the second array is the squared norm of row `j`. -/
theorem V_sq_apply (c : Dev nD) (j : Fin 4096) :
    (V m c main_v3 : S1x4096.Idx → Elt Ideal .f32) (ix2 0 j) = Cert.Triplet.sq (embOf m c) j := by
  have e : (V m c main_v3 : S1x4096.Idx → Elt Ideal .f32)
      = shapeCast S1x4096 (Host.reduceAdd (F := Ideal) (mulf (embOf m c) (embOf m c))
          (constant (F := Ideal) S_ .f32 0x00000000#32) reducesTo_S4096x256_S4096_d1 h_S_) shapeCasts_S4096_S1x4096 := by
    show StableHlo.after hostOps0 (fun b => m (c, b)) (Proc.devRef .tc main_v3) = _
    after_results
    rfl
  rw [e, shapeCast_apply _ shapeCasts_S4096_S1x4096 (ix2 0 j) (ix1 j) (by
    rw [Shape.rowMajor_val_one, Shape.rowMajor_val_two]; show j.val = 0 * 4096 + j.val; omega)]
  show @Eq EReal _ _
  simp only [Host.reduceAdd, Ideal.hostReduceAdd_def]
  rw [Ideal.hostReduceAdd_single reducesTo_S4096x256_S4096_d1 (by decide)]
  unfold Cert.Triplet.sq
  rw [show (constant (F := Ideal) S_ .f32 0x00000000#32) (Shape.Idx.first h_S_) = (0 : EReal) from Ideal.ofBits_zero_f32, zero_add]
  refine Finset.sum_congr rfl fun k _ => ?_
  exact congrArg (fun i => embOf m c i * embOf m c i) (funext fun a => Fin.ext (by match a with | ⟨0, _⟩ => rfl | ⟨1, _⟩ => rfl))

/-- Entering the region, entry (0, j) of the third array is label `j`. -/
theorem V_lab_apply (c : Dev nD) (j : Fin 4096) :
    (V m c main_v4 : S1x4096.Idx → Elt Ideal .i32) (ix2 0 j) = labOf m c (ix1 j) := by
  have e : (V m c main_v4 : S1x4096.Idx → Elt Ideal .i32)
      = shapeCast S1x4096 (labOf m c) shapeCasts_S4096_S1x4096 := by
    show StableHlo.after hostOps0 (fun b => m (c, b)) (Proc.devRef .tc main_v4) = _
    after_results
    rfl
  rw [e, shapeCast_apply _ shapeCasts_S4096_S1x4096 (ix2 0 j) (ix1 j) (by
    rw [Shape.rowMajor_val_one, Shape.rowMajor_val_two]; show j.val = 0 * 4096 + j.val; omega)]

end Cert.KernelIdeal.KValue

end
-- ==== Proof.KBlocks.lean ====
/-
  What each input window's block holds at a grid point.

  The three inputs are staged whole: at every point the block of each input IS the array the region was entered with.
  Point `t` then slices rows `256·t … 256·t + 255` out of the embeddings, and the matching 256 entries out of the row
  of squared norms and out of the row of labels.
-/
import proofs.«102428_j23802708754519_2_alg».proof.Proof.KPieces
import proofs.«102428_j23802708754519_2_alg».proof.Proof.KEntry

noncomputable section

open Idealize.ShloMosaic Idealize.ShloMosaic.TcCoe Idealize.SL.Sem
open Idealize.ShloMosaic.Pipeline (Dat)

namespace Cert.KernelIdeal.KValue

open Cert.KernelIdeal Cert.KernelIdeal.Gen Idealize.ShloMosaic.ValueIdx

variable (m : (ℓ : Loc nD τ sig) → Buf (Elt Ideal) ℓ)

/-- The printed index maps and the body's slice offsets, decided once over the sixteen points: the inputs' block index
    never moves, output block `t` is column block `t`, and point `t` slices from row (or column) `256·t`. -/
theorem grid_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = t.val
    ∧ win0_4.index t (0 : Fin 2) = 0 ∧ win0_4.index t (1 : Fin 2) = t.val
    ∧ k0_off1 (grid0.coords t) (0 : Fin 2) = 256 * t.val ∧ k0_off1 (grid0.coords t) (1 : Fin 2) = 0
    ∧ k0_off2 (grid0.coords t) (0 : Fin 2) = 0 ∧ k0_off2 (grid0.coords t) (1 : Fin 2) = 256 * t.val
    ∧ ((grid0.coords t) 0).val = t.val :=
  (by decide +kernel : ∀ t : Fin grid0.N, _)

/-- A grid point as a number below sixteen. -/
def pt (t : Fin cfg0.N) : Fin 16 := ⟨t.val, by have hN : cfg0.N = 16 := N_0; have := t.isLt; omega⟩

/-- Row `256·t + p`. -/
def rowAt (t : Fin cfg0.N) (p : Fin 256) : Fin 4096 :=
  ⟨256 * t.val + p.val, by have hN : cfg0.N = 16 := N_0; have := t.isLt; have := p.isLt; omega⟩

/-- The embeddings block at any point is the whole array of embeddings. -/
theorem blk_emb (c : Dev nD) (t : Fin cfg0.N) (y : S4096x256.Idx) :
    (iblk m c 0 t : S4096x256.Idx → Elt Ideal .bf16) y = embOf m c y := by
  obtain ⟨e0, e1, -⟩ := grid_facts t
  unfold iblk
  rw [View.read_apply]
  show (V m c main_v0 : S4096x256.Idx → Elt Ideal .bf16) (((cfg0.win 0).blk t).view.emb y) = _
  rw [V_emb_apply]
  refine congrArg (embOf m c) (funext fun a => Fin.ext ?_)
  match a with
  | ⟨0, _⟩ => show win0_0.index t (0 : Fin 2) * 4096 + 1 * (y 0).val = (y 0).val; omega
  | ⟨1, _⟩ => show win0_0.index t (1 : Fin 2) * 256 + 1 * (y 1).val = (y 1).val; omega

/-- The squared-norm block at any point, at column `j`, is the squared norm of row `j`. -/
theorem blk_sq (c : Dev nD) (t : Fin cfg0.N) (j : Fin 4096) :
    (iblk m c 1 t : S1x4096.Idx → Elt Ideal .f32) (ix2 0 j) = Cert.Triplet.sq (embOf m c) j := by
  obtain ⟨-, -, e0, e1, -⟩ := grid_facts t
  unfold iblk
  rw [View.read_apply]
  show (V m c main_v3 : S1x4096.Idx → Elt Ideal .f32) (((cfg0.win 1).blk t).view.emb (ix2 0 j)) = _
  rw [← V_sq_apply]
  refine congrArg (V m c main_v3 : S1x4096.Idx → Elt Ideal .f32) (funext fun a => Fin.ext ?_)
  match a with
  | ⟨0, _⟩ => show win0_1.index t (0 : Fin 2) * 1 + 1 * 0 = 0; omega
  | ⟨1, _⟩ => show win0_1.index t (1 : Fin 2) * 4096 + 1 * j.val = j.val; omega

/-- The label block at any point, at column `j`, is label `j`. -/
theorem blk_lab (c : Dev nD) (t : Fin cfg0.N) (j : Fin 4096) :
    (iblk m c 2 t : S1x4096.Idx → Elt Ideal .i32) (ix2 0 j) = labOf m c (ix1 j) := by
  obtain ⟨-, -, -, -, e0, e1, -⟩ := grid_facts t
  unfold iblk
  rw [View.read_apply]
  show (V m c main_v4 : S1x4096.Idx → Elt Ideal .i32) (((cfg0.win 2).blk t).view.emb (ix2 0 j)) = _
  rw [← V_lab_apply]
  refine congrArg (V m c main_v4 : S1x4096.Idx → Elt Ideal .i32) (funext fun a => Fin.ext ?_)
  match a with
  | ⟨0, _⟩ => show win0_2.index t (0 : Fin 2) * 1 + 1 * 0 = 0; omega
  | ⟨1, _⟩ => show win0_2.index t (1 : Fin 2) * 4096 + 1 * j.val = j.val; omega

/-- Point `t`'s 256 rows of the embeddings block are rows `256·t + p` of the embeddings. -/
theorem rows_apply (c : Dev nD) (t : Fin cfg0.N) (p k : Fin 256) :
    rowsOf (F := Ideal) (grid0.coords t) (iblk m c 0 t) (ix2 p k) = embOf m c (ix2 (rowAt t p) k) := by
  obtain ⟨-, -, -, -, -, -, -, -, -, -, o0, o1, -⟩ := grid_facts t
  show (iblk m c 0 t : S4096x256.Idx → Elt Ideal .bf16) ((Rect.unit (s := S4096x256) (k0_off1 (grid0.coords t)) S256x256.size (k0_off1_inb (grid0.coords t))).idx (ix2 p k)) = _
  rw [blk_emb]
  refine congrArg (embOf m c) (funext fun a => Fin.ext ?_)
  match a with
  | ⟨0, _⟩ => show k0_off1 (grid0.coords t) (0 : Fin 2) + 1 * p.val = 256 * t.val + p.val; omega
  | ⟨1, _⟩ => show k0_off1 (grid0.coords t) (1 : Fin 2) + 1 * k.val = k.val; omega

/-- Point `t`'s slice of the squared norms holds the squared norms of rows `256·t + p`. -/
theorem sqSlice_apply (c : Dev nD) (t : Fin cfg0.N) (p : Fin 256) :
    sliceOf (F := Ideal) (grid0.coords t) (iblk m c 1 t) (ix2 0 p) = Cert.Triplet.sq (embOf m c) (rowAt t p) := by
  obtain ⟨-, -, -, -, -, -, -, -, -, -, -, -, o0, o1, -⟩ := grid_facts t
  show (iblk m c 1 t : S1x4096.Idx → Elt Ideal .f32) ((Rect.unit (s := S1x4096) (k0_off2 (grid0.coords t)) S1x256.size (k0_off2_inb (grid0.coords t))).idx (ix2 0 p)) = _
  rw [← blk_sq m c t]
  refine congrArg (iblk m c 1 t : S1x4096.Idx → Elt Ideal .f32) (funext fun a => Fin.ext ?_)
  match a with
  | ⟨0, _⟩ => show k0_off2 (grid0.coords t) (0 : Fin 2) + 1 * 0 = 0; omega
  | ⟨1, _⟩ => show k0_off2 (grid0.coords t) (1 : Fin 2) + 1 * p.val = 256 * t.val + p.val; omega

/-- Point `t`'s slice of the labels holds the labels of rows `256·t + p`. -/
theorem labSlice_apply (c : Dev nD) (t : Fin cfg0.N) (p : Fin 256) :
    sliceOf (F := Ideal) (grid0.coords t) (iblk m c 2 t) (ix2 0 p) = labOf m c (ix1 (rowAt t p)) := by
  obtain ⟨-, -, -, -, -, -, -, -, -, -, -, -, o0, o1, -⟩ := grid_facts t
  show (iblk m c 2 t : S1x4096.Idx → Elt Ideal .i32) ((Rect.unit (s := S1x4096) (k0_off2 (grid0.coords t)) S1x256.size (k0_off2_inb (grid0.coords t))).idx (ix2 0 p)) = _
  rw [← blk_lab m c t]
  refine congrArg (iblk m c 2 t : S1x4096.Idx → Elt Ideal .i32) (funext fun a => Fin.ext ?_)
  match a with
  | ⟨0, _⟩ => show k0_off2 (grid0.coords t) (0 : Fin 2) + 1 * 0 = 0; omega
  | ⟨1, _⟩ => show k0_off2 (grid0.coords t) (1 : Fin 2) + 1 * p.val = 256 * t.val + p.val; omega

end Cert.KernelIdeal.KValue

end
-- ==== Proof.LibMatmulRows.lean ====
/-
  The product of an [M, K] matrix by the TRANSPOSE of an [N, K] matrix, read at an entry, on the extended reals, for any
  extents and element formats: both operands are contracted along their second axis, so entry (p, n) of the product
  taken into a zero accumulator is the sum over k of the left matrix's (p, k) entry times the right matrix's (n, k)
  entry — row p of the left against row n of the right; taken into an accumulator acc it is acc's entry plus that sum.
-/
import Idealize.ShloMosaic.PureOps.Ideal.Laws
import Idealize.ShloMosaic.Lib.ValueIdx

noncomputable section

namespace Cert.LibMatmulRows

open Idealize.ShloMosaic Idealize.ShloMosaic.ValueIdx

/-- The dimension numbers of a row-against-row product: contract the left matrix's columns with the right one's columns. -/
abbrev rowsDims (M K N : Nat)
    (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

variable {M K N : Nat} (wf : DotDims.WF ⟨2, ![M, K]⟩ ⟨2, ![N, K]⟩ ⟨2, ![M, N]⟩ [1] [1] [0] [0] [] [])

/-- The left operand's row coordinate is the output entry's row. -/
theorem lhsIdx_row (j : (⟨2, ![M, N]⟩ : Shape).Idx) (q : (rowsDims M K N wf).contr.Idx) :
    ((rowsDims M K N wf).lhsIdx j q 0).val = (j 0).val := by
  unfold DotDims.lhsIdx
  rw [dif_neg (show ¬(0 : Fin 2) ∈ (rowsDims M K N wf).lhsBatch from List.not_mem_nil),
    dif_pos (show (0 : Fin 2) ∈ (rowsDims M K N wf).lhsNonContracting from List.mem_singleton.mpr rfl)]
  rfl

/-- The right operand's ROW coordinate is the output entry's column. -/
theorem rhsIdx_row (j : (⟨2, ![M, N]⟩ : Shape).Idx) (q : (rowsDims M K N wf).contr.Idx) :
    ((rowsDims M K N wf).rhsIdx j q 0).val = (j 1).val := by
  unfold DotDims.rhsIdx
  rw [dif_neg (show ¬(0 : Fin 2) ∈ (rowsDims M K N wf).rhsBatch from List.not_mem_nil),
    dif_pos (show (0 : Fin 2) ∈ (rowsDims M K N wf).rhsNonContracting from List.mem_singleton.mpr rfl)]
  rfl

/-- The left operand's index for output entry (p, n) and contraction index k is (p, k). -/
theorem lhsIdx_eq (p : Fin M) (n : Fin N) (k : Fin K) :
    (rowsDims M K N wf).lhsIdx (ix2 p n) ((contrEquiv1 (rowsDims M K N wf) K rfl rfl).symm k) = ix2 p k := by
  have hk := contrEquiv1_symm_val (rowsDims M K N wf) K rfl rfl k
  funext a
  refine Fin.ext ?_
  match a with
  | ⟨0, _⟩ => exact lhsIdx_row wf _ _
  | ⟨1, _⟩ => exact ((rowsDims M K N wf).lhsIdx_val_of_single rfl _ _).trans hk

/-- The right operand's index for output entry (p, n) and contraction index k is (n, k). -/
theorem rhsIdx_eq (p : Fin M) (n : Fin N) (k : Fin K) :
    (rowsDims M K N wf).rhsIdx (ix2 p n) ((contrEquiv1 (rowsDims M K N wf) K rfl rfl).symm k) = ix2 n k := by
  have hk := contrEquiv1_symm_val (rowsDims M K N wf) K rfl rfl k
  funext a
  refine Fin.ext ?_
  match a with
  | ⟨0, _⟩ => exact rhsIdx_row wf _ _
  | ⟨1, _⟩ => exact ((rowsDims M K N wf).rhsIdx_val_of_single rfl _ _).trans hk

/-- Entry (p, n) of the product taken into an accumulator: the accumulator's entry plus the K-term sum. -/
theorem matmul_apply {φ₁ φ₂ : FTy} (prec : Option ContractPrecision)
    (lhs : FVec Ideal ⟨2, ![M, K]⟩ φ₁) (rhs : FVec Ideal ⟨2, ![N, K]⟩ φ₂) (acc : FVec Ideal ⟨2, ![M, N]⟩ .f32)
    (p : Fin M) (n : Fin N) :
    FloatOps.matmul (rowsDims M K N wf) prec lhs rhs acc (ix2 p n)
      = acc (ix2 p n) + ∑ k : Fin K, lhs (ix2 p k) * rhs (ix2 n k) := by
  rw [Ideal.matmul_apply, ← Equiv.sum_comp (contrEquiv1 (rowsDims M K N wf) K rfl rfl).symm]
  refine congrArg (acc (ix2 p n) + ·) (Finset.sum_congr rfl fun k _ => ?_)
  rw [lhsIdx_eq wf p n k, rhsIdx_eq wf p n k]

/-- Entry (p, n) of the product taken into the zero accumulator: the K-term sum alone. -/
theorem matmul_zero_apply {φ₁ φ₂ : FTy} (prec : Option ContractPrecision)
    (lhs : FVec Ideal ⟨2, ![M, K]⟩ φ₁) (rhs : FVec Ideal ⟨2, ![N, K]⟩ φ₂) (p : Fin M) (n : Fin N) :
    FloatOps.matmul (rowsDims M K N wf) prec lhs rhs (constant ⟨2, ![M, N]⟩ .f32 0x00000000#32) (ix2 p n)
      = ∑ k : Fin K, lhs (ix2 p k) * rhs (ix2 n k) := by
  rw [matmul_apply wf prec lhs rhs _ p n]
  show Ideal.ofBits .f32 0x00000000#32 + _ = _
  rw [Ideal.ofBits_zero_f32, zero_add]

end Cert.LibMatmulRows

end
-- ==== Proof.LibKeepdims.lean ====
/-
  A row statistic kept as a column, read at an index.

  A reduction over the last axis of an [a, b] array with the reduced axis kept gives an [a] vector reshaped to
  an [a, 1] column. Such a column meets a rank-2 array in two ways: broadcast along the columns of an [a, b]
  array, where element (p, q) reads row p of the column; or turned into a [1, a] row and broadcast along the
  rows of a [b, a] array, where element (p, q) reads row q of the column. The lemmas read each step at an index
  given by its coordinates, for any extents and any element type; the last reads the row sums themselves, on the
  extended reals, as finite sums over the reduced coordinate.
-/
import Idealize.ShloMosaic.Lib.Pipeline.Value
import Idealize.ShloMosaic.Lib.ValueIdx
import Idealize.ShloMosaic.PureOps.Ideal.Laws

noncomputable section

open scoped BigOperators

namespace Cert.Lib.Keepdims

open Idealize.ShloMosaic Idealize.ShloMosaic.ValueIdx

variable {α : Type}

/-- A vector reshaped [a] → [a, 1]: row `p` of the column is element `p` of the vector. -/
theorem castCol_apply {a : Nat} (v : (⟨1, ![a]⟩ : Shape).Idx → α)
    (h : (⟨1, ![a]⟩ : Shape).ShapeCasts ⟨2, ![a, 1]⟩) (p : Fin a) :
    shapeCast ⟨2, ![a, 1]⟩ v h (ix2 p (0 : Fin 1)) = v (ix1 p) := by
  refine shapeCast_apply v h (ix2 p (0 : Fin 1)) (ix1 p) ?_
  rw [Shape.rowMajor_val_one, Shape.rowMajor_val_two]
  show p.val = p.val * 1 + 0
  omega

/-- A column broadcast [a, 1] → [a, b] along the columns: element (p, q) is the column's row `p`. -/
theorem bcastCol_apply {a b : Nat} (col : (⟨2, ![a, 1]⟩ : Shape).Idx → α)
    (h : (⟨2, ![a, 1]⟩ : Shape).Broadcasts ⟨2, ![a, b]⟩) (p : Fin a) (q : Fin b) :
    broadcastTo ⟨2, ![a, b]⟩ col h (ix2 p q) = col (ix2 p (0 : Fin 1)) :=
  broadcastTo_apply col h (ix2 p q) (ix2 p (0 : Fin 1)) (fun d => match d with
    | ⟨0, _⟩ => by
        show p.val = if a = 1 then 0 else p.val
        split_ifs with ha
        · subst ha; have := p.isLt; omega
        · rfl
    | ⟨1, _⟩ => by show 0 = if (1 : Nat) = 1 then 0 else q.val; rw [if_pos rfl])

/-- A column turned into a row, [a, 1] → [1, a], and broadcast along the rows to [b, a]: element (p, q) is the
    column's row `q`. -/
theorem bcastColAsRow_apply {a b : Nat} (col : (⟨2, ![a, 1]⟩ : Shape).Idx → α)
    (ht : (⟨2, ![a, 1]⟩ : Shape).Transposes [1, 0] ⟨2, ![1, a]⟩)
    (h : (⟨2, ![1, a]⟩ : Shape).Broadcasts ⟨2, ![b, a]⟩) (p : Fin b) (q : Fin a) :
    broadcastTo ⟨2, ![b, a]⟩ (transpose ⟨2, ![1, a]⟩ [1, 0] col ht) h (ix2 p q) = col (ix2 q (0 : Fin 1)) := by
  refine (broadcastTo_apply _ h (ix2 p q) (ix2 (0 : Fin 1) q) (fun d => match d with
    | ⟨0, _⟩ => by show 0 = if (1 : Nat) = 1 then 0 else p.val; rw [if_pos rfl]
    | ⟨1, _⟩ => by
        show q.val = if a = 1 then 0 else q.val
        split_ifs with ha
        · subst ha; have := q.isLt; omega
        · rfl)).trans ?_
  exact transpose_apply [1, 0] col ht (ix2 (0 : Fin 1) q) (ix2 q (0 : Fin 1)) (fun d => match d with
    | ⟨0, _⟩ => rfl
    | ⟨1, _⟩ => rfl)

/-- The sums of an [a, b] array's rows, on the extended reals, kept as a column: row `p` of the column is the sum
    over the `b` coordinates of row `p`. -/
theorem sumCol_apply {a b : Nat} {φ : FTy} (v : FVec Ideal ⟨2, ![a, b]⟩ φ) (acc : BitVec φ.bits)
    (hr : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (p : Fin a) :
    shapeCast ⟨2, ![a, 1]⟩ (multiReduction .add [1] ⟨1, ![a]⟩ v acc hr hφ hacc) hc (ix2 p (0 : Fin 1))
      = ∑ k : Fin b, v (ix2 p k) := by
  refine (castCol_apply _ hc p).trans ?_
  refine (Ideal.multiReduction_add_single v acc hr hφ hacc (ix1 p)).trans ?_
  refine Finset.sum_congr rfl fun k _ => ?_
  exact congrArg v (funext fun d => Fin.ext (by match d with | ⟨0, _⟩ => rfl | ⟨1, _⟩ => rfl))

end Cert.Lib.Keepdims

end
-- ==== Proof.PayloadDist.lean ====
/-
  The tile of the batch-hard triplet kernel at an entry.

  At grid point t the body holds rows 256·t … 256·t+255 of the embeddings (a [256,256] block) beside all 4096 rows,
  the squared norms of the block's rows as a [1,256] slice beside the whole [1,4096] row, and the labels likewise.
  Entry (p, j) of its [256,4096] tile of distances is √(max (s p + s' j − 2·⟨x p, x' j⟩) 0): the block's squared norm
  comes through a [1,256] → [256,1] transpose and a broadcast along the columns, the array's through a broadcast
  along the rows, and the inner product is entry (p, j) of a product contracting the second axis of both operands
  into a zero accumulator. Entry (p, j) of the label mask compares the block's label p with the array's label j,
  and its complement (exclusive-or with the all-ones mask) says the labels differ. The row number 256·t + p and the
  column number j, compared as 32-bit words, differ exactly when the numbers do, since both are below 4096.
  The two accumulator words of the reductions are −∞ and +∞, and the four named constants are the infinities the
  certificate's table gives them.
-/
import proofs.«102428_j23802708754519_2_alg».proof.Proof.Gen.KernelIdeal.Skeleton
import proofs.«102428_j23802708754519_2_alg».proof.Proof.Spec
import proofs.«102428_j23802708754519_2_alg».proof.Proof.LibMatmulRows
import proofs.«102428_j23802708754519_2_alg».proof.Proof.LibKeepdims
import Idealize.ShloMosaic.Lib.ValueLayout
import Idealize.ShloMosaic.Lib.KernelVsHost
import Idealize.ShloMosaic.PureOps.IdealRules
import Idealize.ShloMosaic.Lib.Affine

noncomputable section

open scoped BigOperators

namespace Cert.KernelIdeal.Payload

open Cert.KernelIdeal Cert.KernelIdeal.Gen Cert.Triplet Idealize.ShloMosaic Idealize.ShloMosaic.ValueIdx

/-- Row 256·t + p of the arrays. -/
def row (t : Fin 16) (p : Fin 256) : Fin 4096 := ⟨256 * t.val + p.val, by have := t.isLt; have := p.isLt; omega⟩

/-- Entry (p, j) of the tile of distances, over the values the body reads: the block's squared norm at p, the whole
    row of squared norms at j, and the inner product of row p of the block with row j of the array. -/
theorem pay5_apply (v3 : FVec Ideal S256x256 .bf16) (v5 : FVec Ideal S4096x256 .bf16) (v9 : FVec Ideal S1x256 .f32)
    (v12 : FVec Ideal S1x4096 .f32) (p : Fin 256) (j : Fin 4096) :
    k0_pay5 (F := Ideal) v3 v5 v9 v12 (ix2 p j)
      = Ideal.sqrt (max (v9 (ix2 0 p) + v12 (ix2 0 j) - twoW * ∑ k : Fin 256, v3 (ix2 p k) * v5 (ix2 j k)) zeroW) := by
  unfold k0_pay5
  simp only [shapeCast_self]
  have e1 : broadcastTo S256x4096 (transpose S256x1 [1, 0] v9 transposes_S1x256_p1_0_S256x1)
      broadcasts_S256x1_S256x4096 (ix2 p j) = v9 (ix2 0 p) :=
    (Cert.Lib.Keepdims.bcastCol_apply _ broadcasts_S256x1_S256x4096 p j).trans
      (transpose_ix2_apply v9 transposes_S1x256_p1_0_S256x1 p 0)
  have e2 : broadcastTo S256x4096 v12 broadcasts_S1x4096_S256x4096 (ix2 p j) = v12 (ix2 0 j) :=
    broadcastTo_1b_ab_apply v12 broadcasts_S1x4096_S256x4096 p j
  have e3 : matmul dot_S256x256_S4096x256_S256x4096_1_1_0_0_n_n none v3 v5
      (constant (F := Ideal) S256x4096 .f32 0x00000000#32) (ix2 p j) = ∑ k : Fin 256, v3 (ix2 p k) * v5 (ix2 j k) :=
    Cert.LibMatmulRows.matmul_zero_apply dot_S256x256_S4096x256_S256x4096_1_1_0_0_n_n_wf none v3 v5 p j
  show Ideal.sqrt (max (broadcastTo S256x4096 (transpose S256x1 [1, 0] v9 transposes_S1x256_p1_0_S256x1)
      broadcasts_S256x1_S256x4096 (ix2 p j) + broadcastTo S256x4096 v12 broadcasts_S1x4096_S256x4096 (ix2 p j)
      - twoW * matmul dot_S256x256_S4096x256_S256x4096_1_1_0_0_n_n none v3 v5
          (constant (F := Ideal) S256x4096 .f32 0x00000000#32) (ix2 p j)) zeroW) = _
  rw [e1, e2, e3]

/-! ## The words -/

/-- The accumulator word of the maximum is −∞. -/
theorem negInfW : Ideal.ofBits .f32 0xFF800000#32 = ⊥ := by simp [Ideal.ofBits, Ideal.ieee]
/-- The accumulator word of the minimum is +∞. -/
theorem posInfW : Ideal.ofBits .f32 0x7F800000#32 = ⊤ := by simp [Ideal.ofBits, Ideal.ieee]

/-- The four named constants, by the certificate's table. -/
theorem negBig : Named.named (F := Ideal) Cert.KernelIdeal.κ "neg_big" (φ := .f32) 0xFF333332#32 = ⊥ :=
  IdealRules.named_const.ideal_named_scalar _ _ _ _ rfl
theorem posBig : Named.named (F := Ideal) Cert.KernelIdeal.κ "pos_big" (φ := .f32) 0x7F333332#32 = ⊤ :=
  IdealRules.named_const.ideal_named_scalar _ _ _ _ rfl
theorem negBig2 : Named.named (F := Ideal) Cert.KernelIdeal.κ "neg_big_2" (φ := .f32) 0xFEB33332#32 = ⊥ :=
  IdealRules.named_const.ideal_named_scalar _ _ _ _ rfl
theorem posBig2 : Named.named (F := Ideal) Cert.KernelIdeal.κ "pos_big_2" (φ := .f32) 0x7EB33332#32 = ⊤ :=
  IdealRules.named_const.ideal_named_scalar _ _ _ _ rfl

/-! ## The label masks -/

/-- The label mask at (p, j) compares the block's label p with the array's label j. -/
theorem pay6_apply (v24 : IVec S1x256 32) (v27 : IVec S1x4096 32) (p : Fin 256) (j : Fin 4096) :
    k0_pay6 (F := Ideal) v24 v27 (ix2 p j) = IntOp.cmpi .eq (v24 (ix2 0 p)) (v27 (ix2 0 j)) := by
  unfold k0_pay6
  simp only [shapeCast_self]
  have e1 : broadcastTo S256x4096 (transpose S256x1 [1, 0] v24 transposes_S1x256_p1_0_S256x1)
      broadcasts_S256x1_S256x4096 (ix2 p j) = v24 (ix2 0 p) :=
    (Cert.Lib.Keepdims.bcastCol_apply _ broadcasts_S256x1_S256x4096 p j).trans
      (transpose_ix2_apply v24 transposes_S1x256_p1_0_S256x1 p 0)
  have e2 : broadcastTo S256x4096 v27 broadcasts_S1x4096_S256x4096 (ix2 p j) = v27 (ix2 0 j) :=
    broadcastTo_1b_ab_apply v27 broadcasts_S1x4096_S256x4096 p j
  show IntOp.cmpi .eq (broadcastTo S256x4096 (transpose S256x1 [1, 0] v24 transposes_S1x256_p1_0_S256x1)
      broadcasts_S256x1_S256x4096 (ix2 p j)) (broadcastTo S256x4096 v27 broadcasts_S1x4096_S256x4096 (ix2 p j)) = _
  rw [e1, e2]

/-- The mask says the two labels agree. -/
theorem pay6_iff (v24 : IVec S1x256 32) (v27 : IVec S1x4096 32) (p : Fin 256) (j : Fin 4096) :
    k0_pay6 (F := Ideal) v24 v27 (ix2 p j) = 1#1 ↔ v24 (ix2 0 p) = v27 (ix2 0 j) := by
  rw [pay6_apply]; exact IntOp.cmpi_eq

/-- Its complement says they differ. -/
theorem pay7_iff (v24 : IVec S1x256 32) (v27 : IVec S1x4096 32) (p : Fin 256) (j : Fin 4096) :
    k0_pay7 (F := Ideal) v24 v27 (ix2 p j) = 1#1 ↔ ¬ v24 (ix2 0 p) = v27 (ix2 0 j) := by
  have e : k0_pay7 (F := Ideal) v24 v27 (ix2 p j) = ~~~ (k0_pay6 (F := Ideal) v24 v27 (ix2 p j)) :=
    xori_one_eq_not _
  rw [e, IntOp.not_eq_one, pay6_iff]

/-! ## The row against the column, as words -/

/-- Row number 256·t + p and column number j, compared as 32-bit words, differ exactly when the numbers differ:
    both are below 4096. -/
theorem rowWord_ne (t : Fin 16) (p : Fin 256) (j : Fin 4096) :
    IntOp.cmpi .ne (IntOp.addi (Scalar.muli (BitVec.ofNat 32 t.val) 256#32) (BitVec.ofNat 32 p.val))
      (BitVec.ofNat 32 j.val) = 1#1 ↔ row t p ≠ j := by
  rw [IntOp.cmpi_ne]
  have ht := t.isLt
  have hp := p.isLt
  have hj := j.isLt
  have e : IntOp.addi (Scalar.muli (BitVec.ofNat 32 t.val) 256#32) (BitVec.ofNat 32 p.val)
      = BitVec.ofNat 32 (256 * t.val + p.val) := by
    show BitVec.ofNat 32 t.val * 256#32 + BitVec.ofNat 32 p.val = _
    apply BitVec.eq_of_toNat_eq
    simp only [BitVec.toNat_add, BitVec.toNat_mul, BitVec.toNat_ofNat]
    omega
  rw [e]
  constructor
  · intro h hr
    exact h (by rw [← hr]; rfl)
  · intro h hw
    refine h (Fin.ext ?_)
    have := congrArg BitVec.toNat hw
    simp only [BitVec.toNat_ofNat] at this
    show 256 * t.val + p.val = j.val
    omega

end Cert.KernelIdeal.Payload
end
-- ==== Proof.PayloadRows.lean ====
/-
  The rows of the batch-hard triplet kernel's tile against the specification.

  Along row p of the [256,4096] tile the body takes two reductions. The maximum, from the accumulator −∞, of the
  distance where the labels agree and the row's number 256·t + p differs from the column's number, −∞ elsewhere: the
  hardest positive of row 256·t + p. The minimum, from +∞, of the distance where the labels differ, +∞ elsewhere: its
  hardest negative. Each reduction over the second axis, read at row p, is a fold over the 4096 columns, and each
  selected entry is the specification's `if` on the mask. Row p is valid when the maximum is above −∞ and the
  minimum below +∞; its stored loss is max (hp − hn + margin) 0 where valid and 0 elsewhere, and its stored count is
  the validity bit widened to a word and read as a number, one or zero. Both are stored through a [256,1] → [1,256]
  transpose, so entry (0, p) of the stored row is row p of the column.
-/
import proofs.«102428_j23802708754519_2_alg».proof.Proof.PayloadDist

noncomputable section

open scoped BigOperators

namespace Cert.KernelIdeal.Payload

open Cert.KernelIdeal Cert.KernelIdeal.Gen Cert.Triplet Idealize.ShloMosaic Idealize.ShloMosaic.ValueIdx

/-! ## The two reductions along a row -/

/-- Row index p with coordinate j inserted on the reduced axis is entry (p, j). -/
theorem lift_eq (p : Fin 256) (j : Fin 4096) : reduces_S256x4096_S256.lift (ix1 p) j = ix2 p j :=
  funext fun d => Fin.ext (by match d with | ⟨0, _⟩ => rfl | ⟨1, _⟩ => rfl)

/-- A minimum taken along one axis, on the extended reals: the fold of `min` from the accumulator's value over that
    axis's coordinates. -/
theorem minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The hardest positive of row p of the block: the maximum over the columns j of the distance where the labels agree
    and the row's number differs from j, −∞ elsewhere. -/
theorem pay8_apply (i : grid0.Coords) (v3 : FVec Ideal S256x256 .bf16) (v5 : FVec Ideal S4096x256 .bf16)
    (v9 : FVec Ideal S1x256 .f32) (v12 : FVec Ideal S1x4096 .f32) (v24 : IVec S1x256 32) (v27 : IVec S1x4096 32)
    (p : Fin 256) :
    k0_pay8 (F := Ideal) i v3 v5 v9 v12 v24 v27 (ix2 p 0)
      = (Finset.univ : Finset (Fin 4096)).fold max ⊥ (fun j =>
          Scalar.select (IntOp.andi (k0_pay6 (F := Ideal) v24 v27 (ix2 p j))
            (IntOp.cmpi .ne (IntOp.addi (Scalar.muli (BitVec.ofNat 32 (i 0).val) 256#32) (BitVec.ofNat 32 p.val))
              (BitVec.ofNat 32 j.val)))
            (k0_pay5 (F := Ideal) v3 v5 v9 v12 (ix2 p j)) ⊥) := by
  unfold k0_pay8
  dsimp only
  refine (Cert.Lib.Keepdims.castCol_apply _ shapeCasts_S256_S256x1 p).trans ?_
  refine (Ideal.multiReduction_maximumf_single _ _ reduces_S256x4096_S256 _ _ (ix1 p)).trans ?_
  rw [Ideal.ofBits_def, negInfW]
  refine Finset.fold_congr fun j _ => (congrArg _ (lift_eq p j)).trans ?_
  have hi0 : iota .tc S256x4096 32 [0] iota_S256x4096_d0_w32 (ix2 p j) = BitVec.ofNat 32 p.val :=
    iota_single_apply .tc S256x4096 32 0 iota_S256x4096_d0_w32 (ix2 p j)
  have hi1 : iota .tc S256x4096 32 [1] iota_S256x4096_d1_w32 (ix2 p j) = BitVec.ofNat 32 j.val :=
    iota_single_apply .tc S256x4096 32 1 iota_S256x4096_d1_w32 (ix2 p j)
  show Scalar.select (IntOp.andi (k0_pay6 (F := Ideal) v24 v27 (ix2 p j))
        (IntOp.cmpi .ne (IntOp.addi (Scalar.muli (BitVec.ofNat 32 (i 0).val) 256#32)
            (iota .tc S256x4096 32 [0] iota_S256x4096_d0_w32 (ix2 p j)))
          (iota .tc S256x4096 32 [1] iota_S256x4096_d1_w32 (ix2 p j))))
      (k0_pay5 (F := Ideal) v3 v5 v9 v12 (ix2 p j))
      (Named.named (F := Ideal) κ "neg_big" (φ := .f32) 0xFF333332#32) = _
  rw [hi0, hi1, negBig]

/-- The hardest negative of row p: the minimum over the columns j of the entry of the tile where the mask is set, +∞
    elsewhere. -/
theorem pay1_apply (v22 : FVec Ideal S256x4096 .f32) (v38 : IVec S256x4096 1) (p : Fin 256) :
    k0_pay1 (F := Ideal) v22 v38 (ix2 p 0)
      = (Finset.univ : Finset (Fin 4096)).fold min ⊤ (fun j => Scalar.select (v38 (ix2 p j)) (v22 (ix2 p j)) ⊤) := by
  unfold k0_pay1
  dsimp only
  refine (Cert.Lib.Keepdims.castCol_apply _ shapeCasts_S256_S256x1 p).trans ?_
  refine (minimumf_single _ _ reduces_S256x4096_S256 _ _ (ix1 p)).trans ?_
  rw [Ideal.ofBits_def, posInfW]
  refine Finset.fold_congr fun j _ => (congrArg _ (lift_eq p j)).trans ?_
  show Scalar.select (v38 (ix2 p j)) (v22 (ix2 p j))
      (Named.named (F := Ideal) κ "pos_big" (φ := .f32) 0x7F333332#32) = _
  rw [posBig]

/-! ## Validity, the loss row and the count row -/

/-- The two strict comparisons, as words. -/
theorem cmp_ogt_iff (x y : EReal) : Ideal.cmp .ogt x y = 1#1 ↔ y < x := by
  unfold Ideal.cmp; by_cases h : y < x <;> simp [h]
theorem cmp_olt_iff (x y : EReal) : Ideal.cmp .olt x y = 1#1 ↔ x < y := by
  unfold Ideal.cmp; by_cases h : x < y <;> simp [h]

/-- A conjunction of two strict comparisons against splatted bounds, read at row p of a column. -/
theorem andi_cmp_apply (a b : FVec Ideal S256x1 .f32) (x y : Ideal .f32) (p : Fin 256) :
    andi (cmpf .ogt a (broadcast S256x1 x)) (cmpf .olt b (broadcast S256x1 y)) (ix2 p 0)
      = IntOp.andi (Ideal.cmp .ogt (a (ix2 p 0)) x) (Ideal.cmp .olt (b (ix2 p 0)) y) := rfl

/-- Row p is valid when its hardest positive is above −∞ and its hardest negative below +∞. -/
theorem pay2_iff (v22 : FVec Ideal S256x4096 .f32) (v38 : IVec S256x4096 1) (v42 : FVec Ideal S256x1 .f32) (p : Fin 256) :
    k0_pay2 (F := Ideal) v22 v38 v42 (ix2 p 0) = 1#1
      ↔ ⊥ < v42 (ix2 p 0) ∧ k0_pay1 (F := Ideal) v22 v38 (ix2 p 0) < ⊤ := by
  have e0 : k0_pay2 (F := Ideal) v22 v38 v42
      = andi (cmpf .ogt v42 (broadcast S256x1 (Named.named (F := Ideal) κ "neg_big_2" (φ := .f32) 0xFEB33332#32)))
          (cmpf .olt (k0_pay1 (F := Ideal) v22 v38)
            (broadcast S256x1 (Named.named (F := Ideal) κ "pos_big_2" (φ := .f32) 0x7EB33332#32))) := rfl
  rw [e0, andi_cmp_apply, negBig2, posBig2, IntOp.andi_eq_one, cmp_ogt_iff, cmp_olt_iff]

/-- Entry p of the stored loss row: the hinge of row p where it is valid, zero elsewhere. -/
theorem pay3_apply (v22 : FVec Ideal S256x4096 .f32) (v38 : IVec S256x4096 1) (v42 : FVec Ideal S256x1 .f32) (p : Fin 256) :
    k0_pay3 (F := Ideal) v22 v38 v42 (ix2 0 p)
      = Scalar.select (k0_pay2 (F := Ideal) v22 v38 v42 (ix2 p 0))
          (max (v42 (ix2 p 0) - k0_pay1 (F := Ideal) v22 v38 (ix2 p 0) + marginW) zeroW) zeroW := by
  unfold k0_pay3
  dsimp only
  exact transpose_ix2_apply _ transposes_S256x1_p1_0_S1x256 0 p

/-- Entry p of the stored count row: the validity bit of row p, widened to a word and read as a number. -/
theorem pay4_apply (v22 : FVec Ideal S256x4096 .f32) (v38 : IVec S256x4096 1) (v42 : FVec Ideal S256x1 .f32) (p : Fin 256) :
    k0_pay4 (F := Ideal) v22 v38 v42 (ix2 0 p)
      = ((((k0_pay2 (F := Ideal) v22 v38 v42 (ix2 p 0)).setWidth 32).toInt : ℝ) : EReal) := by
  unfold k0_pay4
  dsimp only
  exact transpose_ix2_apply _ transposes_S256x1_p1_0_S1x256 0 p

/-! ## The tile against the specification -/

section Tile

variable (X : FVec Ideal SEmb .f32) (lab : IVec SLab 32) (i : grid0.Coords) (t : Fin 16) (ht : (i 0).val = t.val)
  (v3 : FVec Ideal S256x256 .bf16) (v5 : FVec Ideal S4096x256 .bf16) (v9 : FVec Ideal S1x256 .f32)
  (v12 : FVec Ideal S1x4096 .f32) (v24 : IVec S1x256 32) (v27 : IVec S1x4096 32)
  (h3 : ∀ (p : Fin 256) (k : Fin 256), v3 (ix2 p k) = X (ix2 (row t p) k))
  (h5 : ∀ (j : Fin 4096) (k : Fin 256), v5 (ix2 j k) = X (ix2 j k))
  (h9 : ∀ p : Fin 256, v9 (ix2 0 p) = sq X (row t p))
  (h12 : ∀ j : Fin 4096, v12 (ix2 0 j) = sq X j)
  (h24 : ∀ p : Fin 256, v24 (ix2 0 p) = lab (ix1 (row t p)))
  (h27 : ∀ j : Fin 4096, v27 (ix2 0 j) = lab (ix1 j))

include h3 h5 h9 h12 in
/-- Entry (p, j) of the tile is the distance between row 256·t + p and row j. -/
theorem dist_tile (p : Fin 256) (j : Fin 4096) :
    k0_pay5 (F := Ideal) v3 v5 v9 v12 (ix2 p j) = dist X (row t p) j := by
  rw [pay5_apply, h9 p, h12 j]
  have hg : ∑ k : Fin 256, v3 (ix2 p k) * v5 (ix2 j k) = gram X (row t p) j :=
    Finset.sum_congr rfl fun k _ => by rw [h3 p k, h5 j k]
  rw [hg]
  rfl

include ht h3 h5 h9 h12 h24 h27 in
/-- The reduced maximum of row p is the hardest positive of row 256·t + p. -/
theorem hp_tile (p : Fin 256) :
    k0_pay8 (F := Ideal) i v3 v5 v9 v12 v24 v27 (ix2 p 0) = hp X lab (row t p) := by
  rw [pay8_apply]
  unfold hp
  refine Finset.fold_congr fun j _ => ?_
  rw [dist_tile X t v3 v5 v9 v12 h3 h5 h9 h12 p j]
  refine select_eq_ite _ (pos lab (row t p) j) ?_ _ _
  rw [IntOp.andi_eq_one, pay6_iff, h24 p, h27 j, ht, rowWord_ne]
  rfl

include h3 h5 h9 h12 h24 h27 in
/-- The reduced minimum of row p is the hardest negative of row 256·t + p. -/
theorem hn_tile (p : Fin 256) :
    k0_pay1 (F := Ideal) (k0_pay5 (F := Ideal) v3 v5 v9 v12) (k0_pay7 (F := Ideal) v24 v27) (ix2 p 0)
      = hn X lab (row t p) := by
  rw [pay1_apply]
  unfold hn
  refine Finset.fold_congr fun j _ => ?_
  rw [dist_tile X t v3 v5 v9 v12 h3 h5 h9 h12 p j]
  refine select_eq_ite _ (neg lab (row t p) j) ?_ _ _
  rw [pay7_iff, h24 p, h27 j]
  rfl

include ht h3 h5 h9 h12 h24 h27 in
/-- The validity bit of row p says row 256·t + p counts, read off the extremes. -/
theorem valid_tile (p : Fin 256) :
    k0_pay2 (F := Ideal) (k0_pay5 (F := Ideal) v3 v5 v9 v12) (k0_pay7 (F := Ideal) v24 v27)
        (k0_pay8 (F := Ideal) i v3 v5 v9 v12 v24 v27) (ix2 p 0) = 1#1
      ↔ countsByExtremes X lab (row t p) := by
  rw [pay2_iff, hp_tile X lab i t ht v3 v5 v9 v12 v24 v27 h3 h5 h9 h12 h24 h27 p,
    hn_tile X lab t v3 v5 v9 v12 v24 v27 h3 h5 h9 h12 h24 h27 p]
  rfl

include ht h3 h5 h9 h12 h24 h27 in
/-- Entry p of the stored loss row is the loss of row 256·t + p under validity by the extremes. -/
theorem loss_tile (p : Fin 256) :
    k0_pay3 (F := Ideal) (k0_pay5 v3 v5 v9 v12) (k0_pay7 (F := Ideal) v24 v27) (k0_pay8 i v3 v5 v9 v12 v24 v27) (ix2 0 p)
      = rowLoss X lab (countsByExtremes X lab) (row t p) := by
  have hv := valid_tile X lab i t ht v3 v5 v9 v12 v24 v27 h3 h5 h9 h12 h24 h27 p
  rw [pay3_apply, hp_tile X lab i t ht v3 v5 v9 v12 v24 v27 h3 h5 h9 h12 h24 h27 p,
    hn_tile X lab t v3 v5 v9 v12 v24 v27 h3 h5 h9 h12 h24 h27 p]
  unfold rowLoss hinge
  by_cases hc : countsByExtremes X lab (row t p)
  · rw [if_pos hc, hv.2 hc]; exact select_one _ _
  · rw [if_neg hc, eq_zero_of_ne_one (fun e => hc (hv.1 e))]; exact select_zero _ _

include ht h3 h5 h9 h12 h24 h27 in
/-- Entry p of the stored count row is one where row 256·t + p counts and zero elsewhere. -/
theorem count_tile (p : Fin 256) :
    k0_pay4 (F := Ideal) (k0_pay5 v3 v5 v9 v12) (k0_pay7 (F := Ideal) v24 v27) (k0_pay8 i v3 v5 v9 v12 v24 v27) (ix2 0 p)
      = rowCount (countsByExtremes X lab) (row t p) := by
  have hv := valid_tile X lab i t ht v3 v5 v9 v12 v24 v27 h3 h5 h9 h12 h24 h27 p
  rw [pay4_apply]
  unfold rowCount
  by_cases hc : countsByExtremes X lab (row t p)
  · rw [if_pos hc, hv.2 hc]; norm_num
  · rw [if_neg hc, eq_zero_of_ne_one (fun e => hc (hv.1 e))]; norm_num

end Tile

end Cert.KernelIdeal.Payload
end
-- ==== Proof.KFlushed.lean ====
/-
  The two arrays the region leaves: entry (0, r) of the first is row r's loss, of the second row r's count.

  Point `t` writes back, as column block `t` of each output array, the row of 256 values its body stored; entry q of
  that row is the loss (the count) of row `256·t + q`.  The sixteen blocks tile the 4096 columns, so after the run
  each array is one function of the arguments: column r holds row r's value.
-/
import proofs.«102428_j23802708754519_2_alg».proof.Proof.KBlocks
import proofs.«102428_j23802708754519_2_alg».proof.Proof.PayloadRows

noncomputable section

open Idealize.ShloMosaic Idealize.ShloMosaic.TcCoe Idealize.SL.Sem
open Idealize.ShloMosaic.Pipeline (Dat)

namespace Cert.KernelIdeal.KValue

open Cert.KernelIdeal Cert.KernelIdeal.Gen Idealize.ShloMosaic.ValueIdx

variable (m : (ℓ : Loc nD τ sig) → Buf (Elt Ideal) ℓ)

/-- "Row r counts", read off the extremes, for the arguments on core `c`. -/
abbrev validOf (c : Dev nD) : Fin 4096 → Prop := Cert.Triplet.countsByExtremes (embOf m c) (labOf m c)

/-- The array of row losses: column r holds row r's loss. -/
def lossArr (c : Dev nD) : FVec Ideal S1x4096 .f32 :=
  fun idx => Cert.Triplet.rowLoss (embOf m c) (labOf m c) (validOf m c) (idx 1)

/-- The array of row counts: column r holds one if row r counts, zero if not. -/
def countArr (c : Dev nD) : FVec Ideal S1x4096 .f32 :=
  fun idx => Cert.Triplet.rowCount (validOf m c) (idx 1)

/-- Every index of a [1,256] block is (0, q). -/
theorem blkIdx (y : S1x256.Idx) : ∃ q : Fin 256, y = ix2 (0 : Fin 1) q :=
  ⟨y 1, (eq_ix2 y).trans (congrArg (fun a : Fin 1 => ix2 a (y 1)) (Fin.ext (by
    have h : (y 0).val < 1 := (y 0).isLt
    show (y 0).val = 0
    omega)))⟩

/-- The stored loss row at point `t`, entry q, is the loss of row `256·t + q`. -/
theorem lossRow_apply (c : Dev nD) (t : Fin cfg0.N) (q : Fin 256) :
    lossRow (F := Ideal) (grid0.coords t) (iblk m c 0 t) (iblk m c 1 t) (iblk m c 2 t) (ix2 0 q)
      = Cert.Triplet.rowLoss (embOf m c) (labOf m c) (validOf m c) (rowAt t q) := by
  have ht : ((grid0.coords t) 0).val = (pt t).val := (grid_facts t).2.2.2.2.2.2.2.2.2.2.2.2.2.2
  exact Cert.KernelIdeal.Payload.loss_tile (embOf m c) (labOf m c) (grid0.coords t) (pt t) ht
    (rowsOf (F := Ideal) (grid0.coords t) (iblk m c 0 t)) (iblk m c 0 t)
    (sliceOf (F := Ideal) (grid0.coords t) (iblk m c 1 t)) (iblk m c 1 t)
    (sliceOf (F := Ideal) (grid0.coords t) (iblk m c 2 t)) (iblk m c 2 t)
    (rows_apply m c t) (fun j k => blk_emb m c t (ix2 j k)) (sqSlice_apply m c t) (blk_sq m c t)
    (labSlice_apply m c t) (blk_lab m c t) q

/-- The stored count row at point `t`, entry q, is the count of row `256·t + q`. -/
theorem countRow_apply (c : Dev nD) (t : Fin cfg0.N) (q : Fin 256) :
    countRow (F := Ideal) (grid0.coords t) (iblk m c 0 t) (iblk m c 1 t) (iblk m c 2 t) (ix2 0 q)
      = Cert.Triplet.rowCount (validOf m c) (rowAt t q) := by
  have ht : ((grid0.coords t) 0).val = (pt t).val := (grid_facts t).2.2.2.2.2.2.2.2.2.2.2.2.2.2
  exact Cert.KernelIdeal.Payload.count_tile (embOf m c) (labOf m c) (grid0.coords t) (pt t) ht
    (rowsOf (F := Ideal) (grid0.coords t) (iblk m c 0 t)) (iblk m c 0 t)
    (sliceOf (F := Ideal) (grid0.coords t) (iblk m c 1 t)) (iblk m c 1 t)
    (sliceOf (F := Ideal) (grid0.coords t) (iblk m c 2 t)) (iblk m c 2 t)
    (rows_apply m c t) (fun j k => blk_emb m c t (ix2 j k)) (sqSlice_apply m c t) (blk_sq m c t)
    (labSlice_apply m c t) (blk_lab m c t) q

/-- Column `q` of output block `t` is column `256·t + q` of the array. -/
theorem col3 (t : Fin cfg0.N) (q : Fin 256) : (((cfg0.win 3).blk t).view.emb (ix2 (0 : Fin 1) q)) 1 = rowAt t q := by
  obtain ⟨-, -, -, -, -, -, -, e1, -⟩ := grid_facts t
  apply Fin.ext
  show win0_3.index t (1 : Fin 2) * 256 + 1 * q.val = 256 * t.val + q.val
  omega
theorem col4 (t : Fin cfg0.N) (q : Fin 256) : (((cfg0.win 4).blk t).view.emb (ix2 (0 : Fin 1) q)) 1 = rowAt t q := by
  obtain ⟨-, -, -, -, -, -, -, -, -, e1, -⟩ := grid_facts t
  apply Fin.ext
  show win0_4.index t (1 : Fin 2) * 256 + 1 * q.val = 256 * t.val + q.val
  omega

/-- What point `t` writes back to the loss array is block `t` of `lossArr`. -/
theorem flushed3_eq (c : Dev nD) (t : Fin cfg0.N) :
    (dats m 0 c).flushed 3 t = ((cfg0.win 3).blk t).view.read (Elt Ideal) (lossArr m c) := by
  show (cfg0.win 3).cut (grid0.coords t) ((dats m 0 c).after 3 t) = _
  rw [after0_3]
  unfold outsAt0
  dsimp only
  rw [out_loss]
  funext y
  obtain ⟨q, rfl⟩ := blkIdx y
  show lossRow (F := Ideal) (grid0.coords t) (iblk m c 0 t) (iblk m c 1 t) (iblk m c 2 t) (ix2 0 q)
    = lossArr m c (((cfg0.win 3).blk t).view.emb (ix2 (0 : Fin 1) q))
  rw [lossRow_apply]
  unfold lossArr
  rw [col3]

/-- What point `t` writes back to the count array is block `t` of `countArr`. -/
theorem flushed4_eq (c : Dev nD) (t : Fin cfg0.N) :
    (dats m 0 c).flushed 4 t = ((cfg0.win 4).blk t).view.read (Elt Ideal) (countArr m c) := by
  show (cfg0.win 4).cut (grid0.coords t) ((dats m 0 c).after 4 t) = _
  rw [after0_4]
  unfold outsAt0
  dsimp only
  rw [out_count]
  funext y
  obtain ⟨q, rfl⟩ := blkIdx y
  show countRow (F := Ideal) (grid0.coords t) (iblk m c 0 t) (iblk m c 1 t) (iblk m c 2 t) (ix2 0 q)
    = countArr m c (((cfg0.win 4).blk t).view.emb (ix2 (0 : Fin 1) q))
  rw [countRow_apply]
  unfold countArr
  rw [col4]

/-- An index of the loss array is in point `t`'s block iff each coordinate is in the block's range. -/
theorem mem_blk3 (t : Fin cfg0.N) (i : S1x4096.Idx) :
    i ∈ ((cfg0.win 3).blk t).view.set ↔ ∀ a : Fin 2, win0_3.index t a * S1x256.size a ≤ (i a).val ∧ (i a).val < win0_3.index t a * S1x256.size a + S1x256.size a := by
  show i ∈ ((View.whole main_v5_0).slice (win0_3.rect t)).set ↔ _
  rw [View.set_slice_whole, Rect.mem_set_unit]
  exact Iff.rfl
theorem mem_blk4 (t : Fin cfg0.N) (i : S1x4096.Idx) :
    i ∈ ((cfg0.win 4).blk t).view.set ↔ ∀ a : Fin 2, win0_4.index t a * S1x256.size a ≤ (i a).val ∧ (i a).val < win0_4.index t a * S1x256.size a + S1x256.size a := by
  show i ∈ ((View.whole main_v5_1).slice (win0_4.rect t)).set ↔ _
  rw [View.set_slice_whole, Rect.mem_set_unit]
  exact Iff.rfl

/-- The point whose block holds column r: `r / 256`. -/
def ptOf (i : S1x4096.Idx) : Fin cfg0.N := ⟨(i 1).val / 256, by
  have hN : cfg0.N = 16 := N_0
  have h1 : (i 1).val < 4096 := (i 1).isLt
  omega⟩

/-- The sixteen blocks cover the loss array. -/
theorem cover3 (i : S1x4096.Idx) : ∃ t : Fin cfg0.N, (cfg0.win 3).flush t = true ∧ i ∈ ((cfg0.win 3).blk t).view.set := by
  refine ⟨ptOf i, flush0_3 _, ?_⟩
  obtain ⟨-, -, -, -, -, -, e0, e1, -⟩ := grid_facts (ptOf i)
  have h0 : (i 0).val < 1 := (i 0).isLt
  have h1 : (i 1).val < 4096 := (i 1).isLt
  have hp : (ptOf i).val = (i 1).val / 256 := rfl
  rw [mem_blk3]
  intro a
  match a with
  | ⟨0, _⟩ => show win0_3.index (ptOf i) (0 : Fin 2) * 1 ≤ (i 0).val ∧ (i 0).val < win0_3.index (ptOf i) (0 : Fin 2) * 1 + 1; omega
  | ⟨1, _⟩ => show win0_3.index (ptOf i) (1 : Fin 2) * 256 ≤ (i 1).val ∧ (i 1).val < win0_3.index (ptOf i) (1 : Fin 2) * 256 + 256; omega

/-- The sixteen blocks cover the count array. -/
theorem cover4 (i : S1x4096.Idx) : ∃ t : Fin cfg0.N, (cfg0.win 4).flush t = true ∧ i ∈ ((cfg0.win 4).blk t).view.set := by
  refine ⟨ptOf i, flush0_4 _, ?_⟩
  obtain ⟨-, -, -, -, -, -, -, -, e0, e1, -⟩ := grid_facts (ptOf i)
  have h0 : (i 0).val < 1 := (i 0).isLt
  have h1 : (i 1).val < 4096 := (i 1).isLt
  have hp : (ptOf i).val = (i 1).val / 256 := rfl
  rw [mem_blk4]
  intro a
  match a with
  | ⟨0, _⟩ => show win0_4.index (ptOf i) (0 : Fin 2) * 1 ≤ (i 0).val ∧ (i 0).val < win0_4.index (ptOf i) (0 : Fin 2) * 1 + 1; omega
  | ⟨1, _⟩ => show win0_4.index (ptOf i) (1 : Fin 2) * 256 ≤ (i 1).val ∧ (i 1).val < win0_4.index (ptOf i) (1 : Fin 2) * 256 + 256; omega

/-- After the run the loss array is `lossArr`. -/
theorem final3 (c : Dev nD) : (dats m 0 c).arrAt 3 cfg0.N = lossArr m c :=
  (dats m 0 c).arrAt_eq_of_cover 3 (lossArr m c) (fun t _ => flushed3_eq m c t) (cover3)

/-- After the run the count array is `countArr`. -/
theorem final4 (c : Dev nD) : (dats m 0 c).arrAt 4 cfg0.N = countArr m c :=
  (dats m 0 c).arrAt_eq_of_cover 4 (countArr m c) (fun t _ => flushed4_eq m c t) (cover4)

end Cert.KernelIdeal.KValue

end
-- ==== Proof.KTail.lean ====
/-
  The last lines of the kernel program, after its one region.

  The region leaves two row vectors of length 4096: the rows' losses and the rows' counts (one or zero).  The
  lines after it sum each over all its entries, starting from the zero word, and return the mean: the total loss
  divided by the larger of the total count and one when the total count is positive, zero otherwise.

  A sum over every index of a 1 × 4096 array is the sum over its 4096 columns (the one row contributes the single
  outer term).  With the two arrays named, the lines are then literally the specification's mean of two totals.
-/
import proofs.«102428_j23802708754519_2_alg».proof.Proof.Gen.KernelIdeal.Frame
import proofs.«102428_j23802708754519_2_alg».proof.Proof.Spec
import Idealize.ShloMosaic.Lib.Pipeline.Value
import Idealize.ShloMosaic.Lib.StableHlo.Run
import Idealize.ShloMosaic.Lib.ValueIdx
import Idealize.ShloMosaic.Lib.IdealHost
import Idealize.ShloMosaic.PureOps.Ideal.Laws
import Idealize.ShloMosaic.Lib.Tactic

set_option maxRecDepth 16384

noncomputable section

open scoped BigOperators

namespace Cert.KernelIdeal.KValue

open Idealize.ShloMosaic Idealize.ShloMosaic.StableHlo Cert.KernelIdeal Cert.KernelIdeal.Gen Idealize.ShloMosaic.ValueIdx

variable (m : (ℓ : Loc nD τ sig) → Buf (Elt Ideal) ℓ)

/-- The sum of a 1 × 4096 array over both its axes, from the zero word, is the total of its 4096 columns. -/
theorem total_row (G : FVec Ideal S1x4096 .f32) :
    Host.reduceAdd (F := Ideal) G (constant (F := Ideal) S_ .f32 0x00000000#32) reducesTo_S1x4096_S_d0_1 h_S_
      = Cert.Triplet.total (fun j : Fin 4096 => G (ix2 0 j)) := by
  funext j
  -- the reduction into the one scalar index is the initial word plus the sum over every index of the array
  rw [hostReduceAdd_apply, Ideal.hostReduceAdd_total _ (fun b => b.elim0)]
  unfold Cert.Triplet.total
  -- a sum over the index pairs (row, column) with one row is the sum over the columns
  rw [sum_idx2, Fin.sum_univ_one]
  rfl

/-- The program's result, once the region's two output arrays are named: the mean of the total loss over the
    total count. -/
theorem tail_result (c : Dev nD) (Gl Gc : FVec Ideal S1x4096 .f32)
    (h3 : (dats m 0 c).arrAt 3 cfg0.N = Gl) (h4 : (dats m 0 c).arrAt 4 cfg0.N = Gc) :
    Pipeline.afterTail₀ cfgs (dats m) 0 (V0 m) [hostOps1, hostOps1_1] c main_v11
      = Cert.Triplet.mean (Cert.Triplet.total (fun j => Gc (ix2 0 j))) (Cert.Triplet.total (fun j => Gl (ix2 0 j))) := by
  unfold Pipeline.afterTail₀
  simp only [hostOps1, hostOps1_1, List.flatten_cons, List.flatten_nil, List.append_nil, List.cons_append, List.nil_append]
  after_results
  -- the two arrays the sums read are the region's outputs
  have e3 : Pipeline.withArrays (cfgs 0).spec c (V0 m c) (fun w => (dats m 0 c).arrAt w (cfgs 0).N)
      (Proc.devRef .tc main_v5_0) = Gl :=
    (Pipeline.withArrays_arr spec0 launch0.win.arr_inj c _ _ 3).trans h3
  have e4 : Pipeline.withArrays (cfgs 0).spec c (V0 m c) (fun w => (dats m 0 c).arrAt w (cfgs 0).N)
      (Proc.devRef .tc main_v5_1) = Gc :=
    (Pipeline.withArrays_arr spec0 launch0.win.arr_inj c _ _ 4).trans h4
  rw [e3, e4, total_row, total_row]
  -- what is left is the mean's own text: compare with zero, divide by the larger of the count and one, select
  rfl

end Cert.KernelIdeal.KValue

end
-- ==== Proof.KRun.lean ====
/-
  The kernel program's run, read back: its result is the triplet loss of its arguments, with "row counts" read off the
  extremes; its arguments end unchanged.

  The region leaves the array of row losses and the array of row counts; the lines after the region sum each of them,
  and take the mean of the losses over the rows that count, zero when none does.
-/
import proofs.«102428_j23802708754519_2_alg».proof.Proof.KFlushed
import proofs.«102428_j23802708754519_2_alg».proof.Proof.KTail

noncomputable section

open Idealize.ShloMosaic Idealize.ShloMosaic.TcCoe Idealize.SL.Sem
open Idealize.ShloMosaic.Pipeline (Dat)

namespace Cert.KernelIdeal.KValue

open Cert.KernelIdeal Cert.KernelIdeal.Gen Idealize.ShloMosaic.ValueIdx

variable (m : (ℓ : Loc nD τ sig) → Buf (Elt Ideal) ℓ) (ρ : Dev nD → PrngReg)

/-- The program's result buffer after the lines that follow the region: the mean loss over the rows that count. -/
theorem result_eq (c : Dev nD) :
    Pipeline.afterTail₀ cfgs (dats m) 0 (V0 m) [hostOps1, hostOps1_1] c main_v11
      = Cert.Triplet.loss (embOf m c) (labOf m c) (validOf m c) :=
  (tail_result m c (lossArr m c) (countArr m c) (final3 m c) (final4 m c)).trans rfl

/-- Every weakly fair execution of the program ends with the result at the triplet loss of the arguments and the
    arguments unchanged. -/
theorem run : θ_run defs (onTc (τ := τ) (main (F := Ideal))) ⟨m, fun _ => 0, ρ⟩ fun r => ∀ c : Dev nD,
      r.2.mem ((c.tc : Thread nD τ).loc main_v11)
        = Cert.Triplet.loss (m ((c.tc : Thread nD τ).loc main_arg0)) (m ((c.tc : Thread nD τ).loc main_arg1))
            (Cert.Triplet.countsByExtremes (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v11 (Pipeline.mem_restRefs_of main_v11 (by decide) (by decide))).trans (result_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.KValue

end
-- ==== Proof.lean ====
/-
  The batch-hard triplet loss of 4096 embeddings of dimension 256 with integer labels, computed two ways.

  For rows i and j the distance is √(max (‖x_i‖² + ‖x_j‖² − 2·⟨x_i, x_j⟩) 0).  Row j is a positive for row i when
  the labels agree and j ≠ i, a negative when the labels differ.  The hardest positive of row i is its largest
  distance to a positive, the hardest negative its smallest distance to a negative; the row's loss is
  max (hardest positive − hardest negative + margin) 0, and the result is the mean of the losses over the rows that
  have both a positive and a negative (zero when no row has).

  The kernel works tile by tile: for 256 rows at a time it forms their distances to all 4096 rows, runs the maximum
  over the positives from −∞ and the minimum over the negatives from +∞, says that a row counts when the maximum has
  left −∞ and the minimum has left +∞, and writes the row's loss and its count (one or zero); the lines after the
  tiles sum the losses and the counts and divide.  The reference forms the whole 4096 × 4096 arrays at once and says
  that a row counts when its mask of positives and its mask of negatives each have a member.

  One law joins them: a row has a positive and a negative exactly when its hardest positive exceeds −∞ and its
  hardest negative lies below +∞.  It holds because, the entries of the embeddings being finite, every distance is
  a real number: a maximum from −∞ over "the distance where j is a positive, −∞ elsewhere" leaves −∞ exactly when
  some j is a positive, and likewise for the minimum from +∞.  Both programs are then the same function of their
  arguments, the loss of the common specification.

  Below: each program runs to completion and leaves its arguments unchanged; the kernel's four large constants
  standing for −∞ and +∞ are read as such; and, over the extended reals, the kernel and the reference end at equal
  results from equal arguments.
-/
import proofs.«102428_j23802708754519_2_alg».proof.Defs
import proofs.«102428_j23802708754519_2_alg».proof.Proof.Gen.Kernel
import proofs.«102428_j23802708754519_2_alg».proof.Proof.Gen.Kernel.Skeleton
import proofs.«102428_j23802708754519_2_alg».proof.Proof.Gen.Kernel.Launch
import proofs.«102428_j23802708754519_2_alg».proof.Proof.Gen.Kernel.Points
import proofs.«102428_j23802708754519_2_alg».proof.Proof.Gen.Kernel.Frame
import proofs.«102428_j23802708754519_2_alg».proof.Proof.Gen.KernelIdeal
import proofs.«102428_j23802708754519_2_alg».proof.Proof.Gen.KernelIdeal.Skeleton
import proofs.«102428_j23802708754519_2_alg».proof.Proof.Gen.KernelIdeal.Launch
import proofs.«102428_j23802708754519_2_alg».proof.Proof.Gen.KernelIdeal.Points
import proofs.«102428_j23802708754519_2_alg».proof.Proof.Gen.KernelIdeal.Frame
import proofs.«102428_j23802708754519_2_alg».proof.Proof.Gen.ReferenceIdeal
import proofs.«102428_j23802708754519_2_alg».proof.Proof.Gen.Pre_finite_inputs
import proofs.«102428_j23802708754519_2_alg».proof.Proof.Spec
import proofs.«102428_j23802708754519_2_alg».proof.Proof.Counts
import proofs.«102428_j23802708754519_2_alg».proof.Proof.Finite
import proofs.«102428_j23802708754519_2_alg».proof.Proof.RefRun
import proofs.«102428_j23802708754519_2_alg».proof.Proof.RefValue
import proofs.«102428_j23802708754519_2_alg».proof.Proof.KRun
import Idealize.ShloMosaic.Adequacy
import Idealize.ShloMosaic.Init

noncomputable section

namespace Cert.Proof

open Idealize.ShloMosaic Idealize.SL.Sem

/-- The kernel as printed runs to completion and leaves its two arguments as it found them. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- So does the reference read over the extended reals. -/
theorem frame_ri : Cert.frame_ReferenceIdeal := fun m ρ _ =>
  (θ_run Cert.ReferenceIdeal.defs _ _).mono (fun _ h c => (h c).2) (Cert.ReferenceIdeal.RefRun.run (F := Ideal) m ρ)

/-- The four large constants the kernel uses as stand-ins for −∞ and +∞ are read as −∞ and +∞: each name's
    table entry is the value stated. -/
theorem preserves : Cert.preserves_Kernel_KernelIdeal :=
  ⟨IdealRules.named_const.statement Cert.KernelIdeal.κ "neg_big" .f32 0xFF333332#32 ⊥ rfl,
   IdealRules.named_const.statement Cert.KernelIdeal.κ "pos_big" .f32 0x7F333332#32 ⊤ rfl,
   IdealRules.named_const.statement Cert.KernelIdeal.κ "neg_big_2" .f32 0xFEB33332#32 ⊥ rfl,
   IdealRules.named_const.statement Cert.KernelIdeal.κ "pos_big_2" .f32 0x7EB33332#32 ⊤ rfl⟩

/-- Over the extended reals, from arguments that agree and whose embedding entries are all finite, the kernel and
    the reference end at the same loss.  The kernel's result is the loss with "row counts" read off the extremes,
    the reference's the loss with "row counts" read off the masks; finite entries make every distance a real
    number, and then the two readings say the same of every row. -/
theorem algebraic : Cert.algebraic_KernelIdeal_ReferenceIdeal := by
  intro m ρ m' ρ' hpre hagree
  refine ⟨fun c => Cert.Triplet.loss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (Cert.Triplet.countsByMasks (m ((c.tc : Thread Cert.KernelIdeal.nD Cert.KernelIdeal.τ).loc Cert.KernelIdeal.main_arg1))),
    ?_, ?_⟩
  · exact (θ_run Cert.KernelIdeal.defs _ _).mono
      (fun _ h c => ⟨(h c).1.trans (Cert.Triplet.loss_eq _ _ (Cert.Triplet.real_of_pre _ _ (hpre c))), (h c).2⟩)
      (Cert.KernelIdeal.KValue.run m ρ)
  · refine (θ_run Cert.ReferenceIdeal.defs _ _).mono (fun _ h c => ⟨(h c).1.trans ?_, (h c).2⟩)
      (Cert.ReferenceIdeal.RefRun.run (F := Ideal) m' ρ')
    rw [(hagree c).1, (hagree c).2]
    exact Cert.ReferenceIdeal.RefValue.refResult_eq _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
